-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 45
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S1x1, .f32⟩
  | .hbm, ⟨12, _⟩ => ⟨S_, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S1x8192, .f32⟩
  | .hbm, ⟨22, _⟩ => ⟨S1x1, .f32⟩
  | .hbm, ⟨23, _⟩ => ⟨S_, .f32⟩
  | .hbm, ⟨24, _⟩ => ⟨S8192x128, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S1x8192, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1x1, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1, .f32⟩
  | .local _ .vmem, ⟨23, _⟩ => ⟨S1024x1, .f32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S128x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x128, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S128x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x128, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x128, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S1x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S128x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_13 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_cst_15 : Ref sig .tc := ⟨.hbm, 82, rfl⟩
abbrev main_v64 : Ref sig .tc := ⟨.hbm, 83, rfl⟩
abbrev main_cst_16 : Ref sig .tc := ⟨.hbm, 84, rfl⟩
abbrev main_v65 : Ref sig .tc := ⟨.hbm, 85, rfl⟩
abbrev main_cst_17 : Ref sig .tc := ⟨.hbm, 86, rfl⟩
abbrev main_v66 : Ref sig .tc := ⟨.hbm, 87, rfl⟩
abbrev main_v67 : Ref sig .tc := ⟨.hbm, 88, rfl⟩
abbrev main_cst_18 : Ref sig .tc := ⟨.hbm, 89, rfl⟩
abbrev main_v68 : Ref sig .tc := ⟨.hbm, 90, rfl⟩
abbrev main_cst_19 : Ref sig .tc := ⟨.hbm, 91, rfl⟩
abbrev main_v69 : Ref sig .tc := ⟨.hbm, 92, rfl⟩
abbrev main_cst_20 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBRuns0.lean ====
/-
  The kernel body of pallas_call 0 run once in each of its two control cases, on whole staging memrefs.

  The body tests whether the grid point is the first one.  At the first point it overwrites the one-element
  accumulator block with zero and then adds the block's total to it; at every other point it adds the block's total
  to what the accumulator block already holds.  Each run ends with the four input blocks as they were and the
  accumulator block holding the pieces the run's stores wrote, last store first.
-/
import proofs.«150827_j20048907337956_1_alg».proof.Proof.Gen.Kernel.Launch
import proofs.«150827_j20048907337956_1_alg».proof.Proof.Gen.Kernel.Skeleton
import proofs.«150827_j20048907337956_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "both grid coordinates are zero", as the printed scalar chain computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-- One staging buffer of the accumulator window, through which its contents are stated. -/
abbrev VO0 : View sig .tc .vmem S1x1 .f32 := (Memref.whole cc0_stg4_0 : Memref sig .tc .vmem S1x1 .f32).view

/-- Each window's current staging memref at point `t`, as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

set_option maxHeartbeats 1000000 in
/-- The first point: the accumulator block, whatever it held, is zeroed and the block's total added. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_block_sum_kernel i arg2 harg2 arg3 harg3 arg4 harg4 arg5 harg5 arg6 harg6) K } := by
  refine ⟨?_, fun E K => ?run⟩
  case run =>
    simp only [cc0__rbf_block_sum_kernel_eq_skeleton]; unfold cc0__rbf_block_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Every other point: the block's total is added to what the accumulator block holds (`xo4`). -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_block_sum_kernel i arg2 harg2 arg3 harg3 arg4 harg4 arg5 harg5 arg6 harg6) K } := by
  refine ⟨?_, fun E K => ?run⟩
  case run =>
    simp only [cc0__rbf_block_sum_kernel_eq_skeleton]; unfold cc0__rbf_block_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBBody0.lean ====
/-
  Pallas_call 0 from the contents `V` its region is entered at: what each grid point's body is handed and what it
  leaves.

  An input window's staging buffer holds its block of the array at every point.  The accumulator window's one-element
  block is never written back before the last point, so at every point after the first its staging buffer holds what
  the point before left: `outsAt0 n` is the accumulator after point `n`, by recursion on `n`.
-/
import proofs.«150827_j20048907337956_1_alg».proof.Proof.KBRuns0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first point's stores cover the accumulator block. -/
theorem cover0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the first point leaves in the accumulator block. -/
def out0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) : Vec F S1x1 .f32 :=
  VO0.read (Elt F) (VO0.writes (Elt F) VO0.junk (kernelRun0_A c i arg2 harg2 arg3 harg3 arg4 harg4 arg5 harg5 arg6 harg6 hc0 x0 x1 x2 x3).1)

/-- A later point's store covers the accumulator block. -/
theorem cover0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) (y : S1x1.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1.size (by sl_kernel_rfl) y

/-- What a later point leaves in the accumulator block, from what it found there. -/
def out0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) : Vec F S1x1 .f32 :=
  VO0.read (Elt F) (VO0.writes (Elt F) VO0.junk (kernelRun0_B c i arg2 harg2 arg3 harg3 arg4 harg4 arg5 harg5 arg6 harg6 hc0 x0 x1 x2 x3 xo4).1)

/-- The accumulator block after the body at point `n`. -/
def outsAt0 (c : Dev nD) : (n : ℕ) → n < cfg0.N → Vec F S1x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact absurd rfl h0
  | succ n => exact rfl

/-- The share of its array each input window holds: the two windows that read one array hold a half each. -/
def q0 : Fin cfg0.W → PosShare TreeShare := fun w => match w with
  | ⟨0, _⟩ => fullShare.left
  | ⟨1, _⟩ => fullShare.right
  | _ => fullShare

/-- The proof data of pipeline 0 on core `c`: the arrays as the region finds them; after the body at point `t`
    each input's buffer at its block and the accumulator's at `outsAt0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the first point the accumulator's staging buffer holds what the point before left: the block is written
    back at the last point only. -/
theorem before0_4_B (c : Dev nD) (t : Fin cfg0.N) (h0 : ¬t.val = 0) (d) :
    (dat0 V c).before 4 t d = outsAt0 V c (t.val - 1) (Nat.lt_of_le_of_lt (Nat.sub_le _ _) t.isLt) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the point is the first or not; at a later point the
    accumulator holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · rw [outsAt0_B V c t h0]
    simp only [before0_4_B V c t h0]
    unfold out0_B
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KBRuns1.lean ====
/-
  The kernel body of pallas_call 1 run once in each of its two control cases, on whole staging memrefs.

  The body tests whether the grid point is the first one.  At the first point it overwrites the one-element
  accumulator block with zero and then adds the block's total to it; at every other point it adds the block's total
  to what the accumulator block already holds.  Each run ends with the four input blocks as they were and the
  accumulator block holding the pieces the run's stores wrote, last store first.
-/
import proofs.«150827_j20048907337956_1_alg».proof.Proof.Gen.Kernel.Launch
import proofs.«150827_j20048907337956_1_alg».proof.Proof.Gen.Kernel.Skeleton
import proofs.«150827_j20048907337956_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "both grid coordinates are zero", as the printed scalar chain computes it. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond1 : ∀ t : Fin cfg1.N, cond1 (grid1.coords t) ↔ t.val = 0 :=
  (by decide +kernel : ∀ t : Fin grid1.N, cond1 (grid1.coords t) ↔ t.val = 0)

/-- One staging buffer of the accumulator window, through which its contents are stated. -/
abbrev VO1 : View sig .tc .vmem S1x1 .f32 := (Memref.whole cc1_stg4_0 : Memref sig .tc .vmem S1x1 .f32).view

/-- Each window's current staging memref at point `t`, as the pipeline passes it, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

set_option maxHeartbeats 1000000 in
/-- The first point: the accumulator block, whatever it held, is zeroed and the block's total added. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_block_sum_kernel i arg2 harg2 arg3 harg3 arg4 harg4 arg5 harg5 arg6 harg6) K } := by
  refine ⟨?_, fun E K => ?run⟩
  case run =>
    simp only [cc1__rbf_block_sum_kernel_eq_skeleton]; unfold cc1__rbf_block_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Every other point: the block's total is added to what the accumulator block holds (`xo4`). -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_block_sum_kernel i arg2 harg2 arg3 harg3 arg4 harg4 arg5 harg5 arg6 harg6) K } := by
  refine ⟨?_, fun E K => ?run⟩
  case run =>
    simp only [cc1__rbf_block_sum_kernel_eq_skeleton]; unfold cc1__rbf_block_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBBody1.lean ====
/-
  Pallas_call 1 from the contents `V` its region is entered at: what each grid point's body is handed and what it
  leaves.

  An input window's staging buffer holds its block of the array at every point.  The accumulator window's one-element
  block is never written back before the last point, so at every point after the first its staging buffer holds what
  the point before left: `outsAt1 n` is the accumulator after point `n`, by recursion on `n`.
-/
import proofs.«150827_j20048907337956_1_alg».proof.Proof.KBRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first point's stores cover the accumulator block. -/
theorem cover1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first point leaves in the accumulator block. -/
def out1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) : Vec F S1x1 .f32 :=
  VO1.read (Elt F) (VO1.writes (Elt F) VO1.junk (kernelRun1_A c i arg2 harg2 arg3 harg3 arg4 harg4 arg5 harg5 arg6 harg6 hc0 x0 x1 x2 x3).1)

/-- A later point's store covers the accumulator block. -/
theorem cover1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) (y : S1x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1.size (by sl_kernel_rfl) y

/-- What a later point leaves in the accumulator block, from what it found there. -/
def out1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) : Vec F S1x1 .f32 :=
  VO1.read (Elt F) (VO1.writes (Elt F) VO1.junk (kernelRun1_B c i arg2 harg2 arg3 harg3 arg4 harg4 arg5 harg5 arg6 harg6 hc0 x0 x1 x2 x3 xo4).1)

/-- The accumulator block after the body at point `n`. -/
def outsAt1 (c : Dev nD) : (n : ℕ) → n < cfg1.N → Vec F S1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr rfl) (iblk1 V c 0 ⟨0, hn⟩) (iblk1 V c 1 ⟨0, hn⟩) (iblk1 V c 2 ⟨0, hn⟩) (iblk1 V c 3 ⟨0, hn⟩)
  | n + 1, hn => out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact absurd rfl h0
  | succ n => exact rfl

/-- The share of its array each input window holds: the two windows that read one array hold a half each. -/
def q1 : Fin cfg1.W → PosShare TreeShare := fun w => match w with
  | ⟨0, _⟩ => fullShare.left
  | ⟨1, _⟩ => fullShare.right
  | _ => fullShare

/-- The proof data of pipeline 1 on core `c`: the arrays as the region finds them; after the body at point `t`
    each input's buffer at its block and the accumulator's at `outsAt1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After the first point the accumulator's staging buffer holds what the point before left: the block is written
    back at the last point only. -/
theorem before1_4_B (c : Dev nD) (t : Fin cfg1.N) (h0 : ¬t.val = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t h0 (Bool.eq_false_iff.mpr fun h => by have := (flush1_4 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the point is the first or not; at a later point the
    accumulator holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KBRuns2.lean ====
/-
  The kernel body of pallas_call 2 run once in each of its two control cases, on whole staging memrefs.

  The body tests whether the grid point is the first one.  At the first point it overwrites the one-element
  accumulator block with zero and then adds the block's total to it; at every other point it adds the block's total
  to what the accumulator block already holds.  Each run ends with the four input blocks as they were and the
  accumulator block holding the pieces the run's stores wrote, last store first.
-/
import proofs.«150827_j20048907337956_1_alg».proof.Proof.Gen.Kernel.Launch
import proofs.«150827_j20048907337956_1_alg».proof.Proof.Gen.Kernel.Skeleton
import proofs.«150827_j20048907337956_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "both grid coordinates are zero", as the printed scalar chain computes it. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond2 : ∀ t : Fin cfg2.N, cond2 (grid2.coords t) ↔ t.val = 0 :=
  (by decide +kernel : ∀ t : Fin grid2.N, cond2 (grid2.coords t) ↔ t.val = 0)

/-- One staging buffer of the accumulator window, through which its contents are stated. -/
abbrev VO2 : View sig .tc .vmem S1x1 .f32 := (Memref.whole cc2_stg4_0 : Memref sig .tc .vmem S1x1 .f32).view

/-- Each window's current staging memref at point `t`, as the pipeline passes it, and its wholeness. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)

set_option maxHeartbeats 1000000 in
/-- The first point: the accumulator block, whatever it held, is zeroed and the block's total added. -/
noncomputable def kernelRun2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_block_sum_kernel i arg2 harg2 arg3 harg3 arg4 harg4 arg5 harg5 arg6 harg6) K } := by
  refine ⟨?_, fun E K => ?run⟩
  case run =>
    simp only [cc2__rbf_block_sum_kernel_eq_skeleton]; unfold cc2__rbf_block_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Every other point: the block's total is added to what the accumulator block holds (`xo4`). -/
noncomputable def kernelRun2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_block_sum_kernel i arg2 harg2 arg3 harg3 arg4 harg4 arg5 harg5 arg6 harg6) K } := by
  refine ⟨?_, fun E K => ?run⟩
  case run =>
    simp only [cc2__rbf_block_sum_kernel_eq_skeleton]; unfold cc2__rbf_block_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBBody2.lean ====
/-
  Pallas_call 2 from the contents `V` its region is entered at: what each grid point's body is handed and what it
  leaves.

  An input window's staging buffer holds its block of the array at every point.  The accumulator window's one-element
  block is never written back before the last point, so at every point after the first its staging buffer holds what
  the point before left: `outsAt2 n` is the accumulator after point `n`, by recursion on `n`.
-/
import proofs.«150827_j20048907337956_1_alg».proof.Proof.KBRuns2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first point's stores cover the accumulator block. -/
theorem cover2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) (y : S1x1.Idx) :
    ∃ pc ∈ (kernelRun2_A c i arg2 harg2 arg3 harg3 arg4 harg4 arg5 harg5 arg6 harg6 hc0 x0 x1 x2 x3).1, y ∈ pc.1.set :=
  View.cover_of_tiledL (kernelRun2_A c i arg2 harg2 arg3 harg3 arg4 harg4 arg5 harg5 arg6 harg6 hc0 x0 x1 x2 x3).1 S1x1.size (by sl_kernel_rfl) y

/-- What the first point leaves in the accumulator block. -/
def out2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) : Vec F S1x1 .f32 :=
  VO2.read (Elt F) (VO2.writes (Elt F) VO2.junk (kernelRun2_A c i arg2 harg2 arg3 harg3 arg4 harg4 arg5 harg5 arg6 harg6 hc0 x0 x1 x2 x3).1)

/-- A later point's store covers the accumulator block. -/
theorem cover2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) (y : S1x1.Idx) :
    ∃ pc ∈ (kernelRun2_B c i arg2 harg2 arg3 harg3 arg4 harg4 arg5 harg5 arg6 harg6 hc0 x0 x1 x2 x3 xo4).1, y ∈ pc.1.set :=
  View.cover_of_tiledL (kernelRun2_B c i arg2 harg2 arg3 harg3 arg4 harg4 arg5 harg5 arg6 harg6 hc0 x0 x1 x2 x3 xo4).1 S1x1.size (by sl_kernel_rfl) y

/-- What a later point leaves in the accumulator block, from what it found there. -/
def out2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) : Vec F S1x1 .f32 :=
  VO2.read (Elt F) (VO2.writes (Elt F) VO2.junk (kernelRun2_B c i arg2 harg2 arg3 harg3 arg4 harg4 arg5 harg5 arg6 harg6 hc0 x0 x1 x2 x3 xo4).1)

/-- The accumulator block after the body at point `n`. -/
def outsAt2 (c : Dev nD) : (n : ℕ) → n < cfg2.N → Vec F S1x1 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2 ⟨0, hn⟩).mpr rfl) (iblk2 V c 0 ⟨0, hn⟩) (iblk2 V c 1 ⟨0, hn⟩) (iblk2 V c 2 ⟨0, hn⟩) (iblk2 V c 3 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem outsAt2_B (c : Dev nD) (t : Fin cfg2.N) (h0 : ¬t.val = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact absurd rfl h0
  | succ n => exact rfl

/-- Every window holds its array whole. -/
def q2 : Fin cfg2.W → PosShare TreeShare := fun _ => fullShare

/-- The proof data of pipeline 2 on core `c`: the arrays as the region finds them; after the body at point `t`
    each input's buffer at its block and the accumulator's at `outsAt2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- After the first point the accumulator's staging buffer holds what the point before left: the block is written
    back at the last point only. -/
theorem before2_4_B (c : Dev nD) (t : Fin cfg2.N) (h0 : ¬t.val = 0) (d) :
    (dat2 V c).before 4 t d = outsAt2 V c (t.val - 1) (Nat.lt_of_le_of_lt (Nat.sub_le _ _) t.isLt) := by
  have hN : t.val < 64 := lt_of_lt_of_eq t.isLt (show cfg2.N = 64 from N_2)
  rw [Dat.before_out_kept _ 4 rfl t h0 (Bool.eq_false_iff.mpr fun h => by have := (flush2_4 _).mp h; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' memrefs hold their blocks; the point is the first or not; at a later point the
    accumulator holds what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A c _ _ _ _ _ _ _ _ _ _ _ _ _ _ _ _)
  · rw [outsAt2_B V c t h0]
    simp only [before2_4_B V c t h0]
    unfold out2_B
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KBArr.lean ====
/-
  The arrays of each pallas_call as part of the core's unscoped buffers: taken out at the region's entry and put back
  at its exit.  Where a call hands one array to two input windows, the array's ownership is halved between them at
  entry and the halves are rejoined at exit; an input array ends as it was entered.
-/
import proofs.«150827_j20048907337956_1_alg».proof.Proof.KBBody0
import proofs.«150827_j20048907337956_1_alg».proof.Proof.KBBody1
import proofs.«150827_j20048907337956_1_alg».proof.Proof.KBBody2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (c : Dev nD) (G : (b : Ref sig .tc) → Buf (Elt F) ((c : Thread nD τ).loc b))

/-! ## Pallas_call 0 -/

/-- The distinct buffers behind its windows' arrays. -/
theorem image0 : Finset.univ.image (Pipeline.arrRef spec0) = ({main_arg0, main_v2, main_v6, main_v7} : Finset (Ref sig .tc)) := by decide

theorem arrBufs0_eq : (Pipeline.arrBufs (Ix := Unit) (Name := ℕ) (U := UR sig nD τ) (Lvl := ℕ) spec0 c G : sProp 𝕄)
    = iprop((((c : Thread nD τ).loc main_arg0) ↦{fullShare} G main_arg0) ∗ (((c : Thread nD τ).loc main_v2) ↦{fullShare} G main_v2) ∗ (((c : Thread nD τ).loc main_v6) ↦{fullShare} G main_v6) ∗ (((c : Thread nD τ).loc main_v7) ↦{fullShare} G main_v7)) := by
  unfold Pipeline.arrBufs
  rw [image0, bigSep_insert (by decide), bigSep_insert (by decide), bigSep_insert (by decide), bigSep_singleton]
  rfl

/-- The pipeline's arrays at contents read off `G`, window by window: the two windows on `main_arg0` hold a half of it each. -/
theorem arrays0_eq : ((dat0 V c).arrays (fun w => G (Pipeline.arrRef spec0 w)) : sProp 𝕄)
    = iprop((((c : Thread nD τ).loc main_arg0) ↦{fullShare.left} G main_arg0) ∗ (((c : Thread nD τ).loc main_arg0) ↦{fullShare.right} G main_arg0) ∗ (((c : Thread nD τ).loc main_v2) ↦{fullShare} G main_v2) ∗ (((c : Thread nD τ).loc main_v6) ↦{fullShare} G main_v6) ∗ (((c : Thread nD τ).loc main_v7) ↦{fullShare} G main_v7)) := by
  unfold Dat.arrays
  rw [bigSep_W0]
  rw [(arr_whole0 0).set_eq_univ, (arr_whole0 2).set_eq_univ, (arr_whole0 3).set_eq_univ, (arr_whole0 4).set_eq_univ]
  rfl

/-- ENTRY: the core's unscoped buffers at `V` are the pipeline's arrays at their entry contents and the rest. -/
theorem entry0 : (unscopedBufs (Ix := Unit) (Name := ℕ) (U := UR sig nD τ) (Lvl := ℕ) c (V c) : sProp 𝕄)
    ⊢ iprop((dat0 V c).arrays ((dat0 V c).arrAt · 0) ∗ Pipeline.unscopedRest spec0 c (V c)) := by
  rw [show (unscopedBufs (Ix := Unit) (Name := ℕ) (U := UR sig nD τ) (Lvl := ℕ) c (V c) : sProp 𝕄) = iprop(Pipeline.arrBufs spec0 c (V c) ∗ Pipeline.unscopedRest spec0 c (V c)) from
    Pipeline.unscopedBufs_split₀ cfgs 0 winFacts₀0.arr_unscoped c (V c), arrBufs0_eq]
  rw [show ((dat0 V c).arrAt · 0) = (fun w => V c (Pipeline.arrRef spec0 w)) from rfl, arrays0_eq V c (V c)]
  iintro ⟨⟨Ha, Hb, Hc, Hd⟩, Hr⟩
  ihave Hsp := (pointsTo_share (PosShare.mem_left_op_right fullShare)).1 $$ Ha
  icases Hsp with ⟨HaL, HaR⟩
  isplitr [Hr]
  ·
    isplitl [HaL]; · iexact HaL
    isplitl [HaR]; · iexact HaR
    isplitl [Hb]; · iexact Hb
    isplitl [Hc]; · iexact Hc
    iexact Hd
  iexact Hr

/-- EXIT: the arrays at their final contents and the rest as entered are the core's unscoped buffers at contents `G`
    that agree with the arrays' final contents and, off the arrays, with `V`. -/
theorem exit0 (hF : ∀ w, (dat0 V c).arrAt w cfg0.N = G (Pipeline.arrRef spec0 w))
    (hrest : ∀ b, b ∉ Finset.univ.image (Pipeline.arrRef spec0) → G b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c G : sProp 𝕄) := by
  rw [show (unscopedBufs (Ix := Unit) (Name := ℕ) (U := UR sig nD τ) (Lvl := ℕ) c G : sProp 𝕄) = iprop(Pipeline.arrBufs spec0 c G ∗ Pipeline.unscopedRest spec0 c G) from
    Pipeline.unscopedBufs_split₀ cfgs 0 winFacts₀0.arr_unscoped c G, arrBufs0_eq]
  rw [show ((dat0 V c).arrAt · cfg0.N) = (fun w => G (Pipeline.arrRef spec0 w)) from funext hF, arrays0_eq V c G]
  rw [show Pipeline.unscopedRest (Ix := Unit) (Name := ℕ) (U := UR sig nD τ) (Lvl := ℕ) spec0 c (V c) = Pipeline.unscopedRest spec0 c G from by
    unfold Pipeline.unscopedRest
    exact bigSep_congr fun b hb => by rw [hrest b (Finset.mem_sdiff.mp hb).2]]
  iintro ⟨⟨HaL, HaR, Hb, Hc, Hd⟩, Hr⟩
  ihave Ha := (pointsTo_share (PosShare.mem_left_op_right fullShare)).2 $$ [HaL HaR]
  · isplitl [HaL]; · iexact HaL
    iexact HaR
  isplitr [Hr]
  ·
    isplitl [Ha]; · iexact Ha
    isplitl [Hb]; · iexact Hb
    isplitl [Hc]; · iexact Hc
    iexact Hd
  iexact Hr

/-! ## Pallas_call 1 -/

/-- The distinct buffers behind its windows' arrays. -/
theorem image1 : Finset.univ.image (Pipeline.arrRef spec1) = ({main_arg1, main_v11, main_v15, main_v16} : Finset (Ref sig .tc)) := by decide

theorem arrBufs1_eq : (Pipeline.arrBufs (Ix := Unit) (Name := ℕ) (U := UR sig nD τ) (Lvl := ℕ) spec1 c G : sProp 𝕄)
    = iprop((((c : Thread nD τ).loc main_arg1) ↦{fullShare} G main_arg1) ∗ (((c : Thread nD τ).loc main_v11) ↦{fullShare} G main_v11) ∗ (((c : Thread nD τ).loc main_v15) ↦{fullShare} G main_v15) ∗ (((c : Thread nD τ).loc main_v16) ↦{fullShare} G main_v16)) := by
  unfold Pipeline.arrBufs
  rw [image1, bigSep_insert (by decide), bigSep_insert (by decide), bigSep_insert (by decide), bigSep_singleton]
  rfl

/-- The pipeline's arrays at contents read off `G`, window by window: the two windows on `main_arg1` hold a half of it each. -/
theorem arrays1_eq : ((dat1 V c).arrays (fun w => G (Pipeline.arrRef spec1 w)) : sProp 𝕄)
    = iprop((((c : Thread nD τ).loc main_arg1) ↦{fullShare.left} G main_arg1) ∗ (((c : Thread nD τ).loc main_arg1) ↦{fullShare.right} G main_arg1) ∗ (((c : Thread nD τ).loc main_v11) ↦{fullShare} G main_v11) ∗ (((c : Thread nD τ).loc main_v15) ↦{fullShare} G main_v15) ∗ (((c : Thread nD τ).loc main_v16) ↦{fullShare} G main_v16)) := by
  unfold Dat.arrays
  rw [bigSep_W1]
  rw [(arr_whole1 0).set_eq_univ, (arr_whole1 2).set_eq_univ, (arr_whole1 3).set_eq_univ, (arr_whole1 4).set_eq_univ]
  rfl

/-- ENTRY: the core's unscoped buffers at `V` are the pipeline's arrays at their entry contents and the rest. -/
theorem entry1 : (unscopedBufs (Ix := Unit) (Name := ℕ) (U := UR sig nD τ) (Lvl := ℕ) c (V c) : sProp 𝕄)
    ⊢ iprop((dat1 V c).arrays ((dat1 V c).arrAt · 0) ∗ Pipeline.unscopedRest spec1 c (V c)) := by
  rw [show (unscopedBufs (Ix := Unit) (Name := ℕ) (U := UR sig nD τ) (Lvl := ℕ) c (V c) : sProp 𝕄) = iprop(Pipeline.arrBufs spec1 c (V c) ∗ Pipeline.unscopedRest spec1 c (V c)) from
    Pipeline.unscopedBufs_split₀ cfgs 1 winFacts₀1.arr_unscoped c (V c), arrBufs1_eq]
  rw [show ((dat1 V c).arrAt · 0) = (fun w => V c (Pipeline.arrRef spec1 w)) from rfl, arrays1_eq V c (V c)]
  iintro ⟨⟨Ha, Hb, Hc, Hd⟩, Hr⟩
  ihave Hsp := (pointsTo_share (PosShare.mem_left_op_right fullShare)).1 $$ Ha
  icases Hsp with ⟨HaL, HaR⟩
  isplitr [Hr]
  ·
    isplitl [HaL]; · iexact HaL
    isplitl [HaR]; · iexact HaR
    isplitl [Hb]; · iexact Hb
    isplitl [Hc]; · iexact Hc
    iexact Hd
  iexact Hr

/-- EXIT: the arrays at their final contents and the rest as entered are the core's unscoped buffers at contents `G`
    that agree with the arrays' final contents and, off the arrays, with `V`. -/
theorem exit1 (hF : ∀ w, (dat1 V c).arrAt w cfg1.N = G (Pipeline.arrRef spec1 w))
    (hrest : ∀ b, b ∉ Finset.univ.image (Pipeline.arrRef spec1) → G b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c G : sProp 𝕄) := by
  rw [show (unscopedBufs (Ix := Unit) (Name := ℕ) (U := UR sig nD τ) (Lvl := ℕ) c G : sProp 𝕄) = iprop(Pipeline.arrBufs spec1 c G ∗ Pipeline.unscopedRest spec1 c G) from
    Pipeline.unscopedBufs_split₀ cfgs 1 winFacts₀1.arr_unscoped c G, arrBufs1_eq]
  rw [show ((dat1 V c).arrAt · cfg1.N) = (fun w => G (Pipeline.arrRef spec1 w)) from funext hF, arrays1_eq V c G]
  rw [show Pipeline.unscopedRest (Ix := Unit) (Name := ℕ) (U := UR sig nD τ) (Lvl := ℕ) spec1 c (V c) = Pipeline.unscopedRest spec1 c G from by
    unfold Pipeline.unscopedRest
    exact bigSep_congr fun b hb => by rw [hrest b (Finset.mem_sdiff.mp hb).2]]
  iintro ⟨⟨HaL, HaR, Hb, Hc, Hd⟩, Hr⟩
  ihave Ha := (pointsTo_share (PosShare.mem_left_op_right fullShare)).2 $$ [HaL HaR]
  · isplitl [HaL]; · iexact HaL
    iexact HaR
  isplitr [Hr]
  ·
    isplitl [Ha]; · iexact Ha
    isplitl [Hb]; · iexact Hb
    isplitl [Hc]; · iexact Hc
    iexact Hd
  iexact Hr

/-! ## Pallas_call 2 -/

/-- The distinct buffers behind its windows' arrays. -/
theorem image2 : Finset.univ.image (Pipeline.arrRef spec2) = ({main_arg0, main_arg1, main_v20, main_v24, main_v25} : Finset (Ref sig .tc)) := by decide

theorem arrBufs2_eq : (Pipeline.arrBufs (Ix := Unit) (Name := ℕ) (U := UR sig nD τ) (Lvl := ℕ) spec2 c G : sProp 𝕄)
    = iprop((((c : Thread nD τ).loc main_arg0) ↦{fullShare} G main_arg0) ∗ (((c : Thread nD τ).loc main_arg1) ↦{fullShare} G main_arg1) ∗ (((c : Thread nD τ).loc main_v20) ↦{fullShare} G main_v20) ∗ (((c : Thread nD τ).loc main_v24) ↦{fullShare} G main_v24) ∗ (((c : Thread nD τ).loc main_v25) ↦{fullShare} G main_v25)) := by
  unfold Pipeline.arrBufs
  rw [image2, bigSep_insert (by decide), bigSep_insert (by decide), bigSep_insert (by decide), bigSep_insert (by decide), bigSep_singleton]
  rfl

/-- The pipeline's arrays at contents read off `G`, window by window. -/
theorem arrays2_eq : ((dat2 V c).arrays (fun w => G (Pipeline.arrRef spec2 w)) : sProp 𝕄)
    = iprop((((c : Thread nD τ).loc main_arg0) ↦{fullShare} G main_arg0) ∗ (((c : Thread nD τ).loc main_arg1) ↦{fullShare} G main_arg1) ∗ (((c : Thread nD τ).loc main_v20) ↦{fullShare} G main_v20) ∗ (((c : Thread nD τ).loc main_v24) ↦{fullShare} G main_v24) ∗ (((c : Thread nD τ).loc main_v25) ↦{fullShare} G main_v25)) := by
  unfold Dat.arrays
  rw [bigSep_W2]
  rw [(arr_whole2 0).set_eq_univ, (arr_whole2 1).set_eq_univ, (arr_whole2 2).set_eq_univ, (arr_whole2 3).set_eq_univ, (arr_whole2 4).set_eq_univ]
  rfl

/-- ENTRY: the core's unscoped buffers at `V` are the pipeline's arrays at their entry contents and the rest. -/
theorem entry2 : (unscopedBufs (Ix := Unit) (Name := ℕ) (U := UR sig nD τ) (Lvl := ℕ) c (V c) : sProp 𝕄)
    ⊢ iprop((dat2 V c).arrays ((dat2 V c).arrAt · 0) ∗ Pipeline.unscopedRest spec2 c (V c)) := by
  rw [show (unscopedBufs (Ix := Unit) (Name := ℕ) (U := UR sig nD τ) (Lvl := ℕ) c (V c) : sProp 𝕄) = iprop(Pipeline.arrBufs spec2 c (V c) ∗ Pipeline.unscopedRest spec2 c (V c)) from
    Pipeline.unscopedBufs_split₀ cfgs 2 winFacts2.arr_unscoped c (V c), arrBufs2_eq]
  rw [show ((dat2 V c).arrAt · 0) = (fun w => V c (Pipeline.arrRef spec2 w)) from rfl, arrays2_eq V c (V c)]

/-- EXIT: the arrays at their final contents and the rest as entered are the core's unscoped buffers at contents `G`
    that agree with the arrays' final contents and, off the arrays, with `V`. -/
theorem exit2 (hF : ∀ w, (dat2 V c).arrAt w cfg2.N = G (Pipeline.arrRef spec2 w))
    (hrest : ∀ b, b ∉ Finset.univ.image (Pipeline.arrRef spec2) → G b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs (Ix := Unit) (Name := ℕ) (U := UR sig nD τ) (Lvl := ℕ) c G : sProp 𝕄) := by
  rw [show (unscopedBufs (Ix := Unit) (Name := ℕ) (U := UR sig nD τ) (Lvl := ℕ) c G : sProp 𝕄) = iprop(Pipeline.arrBufs spec2 c G ∗ Pipeline.unscopedRest spec2 c G) from
    Pipeline.unscopedBufs_split₀ cfgs 2 winFacts2.arr_unscoped c G, arrBufs2_eq]
  rw [show ((dat2 V c).arrAt · cfg2.N) = (fun w => G (Pipeline.arrRef spec2 w)) from funext hF, arrays2_eq V c G]
  rw [show Pipeline.unscopedRest (Ix := Unit) (Name := ℕ) (U := UR sig nD τ) (Lvl := ℕ) spec2 c (V c) = Pipeline.unscopedRest spec2 c G from by
    unfold Pipeline.unscopedRest
    exact bigSep_congr fun b hb => by rw [hrest b (Finset.mem_sdiff.mp hb).2]]

end

end Cert.Kernel.Hand

end
-- ==== Proof.KBFrame.lean ====
/-
  The whole program run: three pallas_calls among four stretches of host operations.

  The contents of the core's unscoped buffers are followed from the launch through every item: a stretch of host
  operations applies its operations; a pallas_call changes its one-element result array to what its single write-back
  leaves and nothing else.  Every weakly fair execution terminates without fault, and the final memory holds every
  unscoped buffer at the last of these contents.
-/
import proofs.«150827_j20048907337956_1_alg».proof.Proof.KBArr
import proofs.«150827_j20048907337956_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pallas_call 0's exit: its result array at what the pipeline's one write-back leaves, every other buffer as entered. -/
def W2 (c : Dev nD) : Valuation τ sig (Elt F) :=
  Function.update (W1 m ρ c) (Proc.devRef .tc main_v7) ((dat0 (V1 m ρ) c).arrAt 4 cfg0.N)
theorem W2_out (c : Dev nD) : W2 m ρ c (Proc.devRef .tc main_v7) = (dat0 (V1 m ρ) c).arrAt 4 cfg0.N := by
  unfold W2; exact Function.update_self ..
theorem W2_of_ne (c : Dev nD) (b : Ref sig .tc) (hb : b ≠ main_v7) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- At the exit each of the region's arrays holds what the pipeline leaves — an input array its entry contents, the
    result array its write-back — and every other buffer what it held at entry. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c _ (by decide)).symm
  | ⟨1, _⟩ => exact (((dat0 (V1 m ρ) c).arrAt_in 1 rfl _).trans (A_eq0 (V1 m ρ) c 1)).trans (W2_of_ne m ρ c _ (by decide)).symm
  | ⟨2, _⟩ => exact (((dat0 (V1 m ρ) c).arrAt_in 2 rfl _).trans (A_eq0 (V1 m ρ) c 2)).trans (W2_of_ne m ρ c _ (by decide)).symm
  | ⟨3, _⟩ => exact (((dat0 (V1 m ρ) c).arrAt_in 3 rfl _).trans (A_eq0 (V1 m ρ) c 3)).trans (W2_of_ne m ρ c _ (by decide)).symm
  | ⟨4, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)
/-- After the next stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pallas_call 1's exit: its result array at what the pipeline's one write-back leaves, every other buffer as entered. -/
def W4 (c : Dev nD) : Valuation τ sig (Elt F) :=
  Function.update (W3 m ρ c) (Proc.devRef .tc main_v16) ((dat1 (V3 m ρ) c).arrAt 4 cfg1.N)
theorem W4_out (c : Dev nD) : W4 m ρ c (Proc.devRef .tc main_v16) = (dat1 (V3 m ρ) c).arrAt 4 cfg1.N := by
  unfold W4; exact Function.update_self ..
theorem W4_of_ne (c : Dev nD) (b : Ref sig .tc) (hb : b ≠ main_v16) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b
/-- At the exit each of the region's arrays holds what the pipeline leaves — an input array its entry contents, the
    result array its write-back — and every other buffer what it held at entry. -/
theorem hF1 (c : Dev nD) (w : Fin cfg1.W) : (dat1 (V3 m ρ) c).arrAt w cfg1.N = V4 m ρ c (Pipeline.arrRef spec1 w) := by
  match w with
  | ⟨0, _⟩ => exact (((dat1 (V3 m ρ) c).arrAt_in 0 rfl _).trans (A_eq1 (V3 m ρ) c 0)).trans (W4_of_ne m ρ c _ (by decide)).symm
  | ⟨1, _⟩ => exact (((dat1 (V3 m ρ) c).arrAt_in 1 rfl _).trans (A_eq1 (V3 m ρ) c 1)).trans (W4_of_ne m ρ c _ (by decide)).symm
  | ⟨2, _⟩ => exact (((dat1 (V3 m ρ) c).arrAt_in 2 rfl _).trans (A_eq1 (V3 m ρ) c 2)).trans (W4_of_ne m ρ c _ (by decide)).symm
  | ⟨3, _⟩ => exact (((dat1 (V3 m ρ) c).arrAt_in 3 rfl _).trans (A_eq1 (V3 m ρ) c 3)).trans (W4_of_ne m ρ c _ (by decide)).symm
  | ⟨4, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨4, Finset.mem_univ _, e.symm⟩)
/-- After the next stretch of host operations. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At pallas_call 2's exit: its result array at what the pipeline's one write-back leaves, every other buffer as entered. -/
def W6 (c : Dev nD) : Valuation τ sig (Elt F) :=
  Function.update (W5 m ρ c) (Proc.devRef .tc main_v25) ((dat2 (V5 m ρ) c).arrAt 4 cfg2.N)
theorem W6_out (c : Dev nD) : W6 m ρ c (Proc.devRef .tc main_v25) = (dat2 (V5 m ρ) c).arrAt 4 cfg2.N := by
  unfold W6; exact Function.update_self ..
theorem W6_of_ne (c : Dev nD) (b : Ref sig .tc) (hb : b ≠ main_v25) :
    W6 m ρ c (Proc.devRef .tc b) = W5 m ρ c (Proc.devRef .tc b) := by
  unfold W6; exact Function.update_of_ne (StableHlo.devRef_ne_of_ne hb) ..
abbrev V6 : (c : Dev nD) → (b : Ref sig .tc) → Buf (Elt F) ((c : Thread nD τ).loc b) := fun c b => W6 m ρ c b
/-- At the exit each of the region's arrays holds what the pipeline leaves — an input array its entry contents, the
    result array its write-back — and every other buffer what it held at entry. -/
theorem hF2 (c : Dev nD) (w : Fin cfg2.W) : (dat2 (V5 m ρ) c).arrAt w cfg2.N = V6 m ρ c (Pipeline.arrRef spec2 w) := by
  match w with
  | ⟨0, _⟩ => exact (((dat2 (V5 m ρ) c).arrAt_in 0 rfl _).trans (A_eq2 (V5 m ρ) c 0)).trans (W6_of_ne m ρ c _ (by decide)).symm
  | ⟨1, _⟩ => exact (((dat2 (V5 m ρ) c).arrAt_in 1 rfl _).trans (A_eq2 (V5 m ρ) c 1)).trans (W6_of_ne m ρ c _ (by decide)).symm
  | ⟨2, _⟩ => exact (((dat2 (V5 m ρ) c).arrAt_in 2 rfl _).trans (A_eq2 (V5 m ρ) c 2)).trans (W6_of_ne m ρ c _ (by decide)).symm
  | ⟨3, _⟩ => exact (((dat2 (V5 m ρ) c).arrAt_in 3 rfl _).trans (A_eq2 (V5 m ρ) c 3)).trans (W6_of_ne m ρ c _ (by decide)).symm
  | ⟨4, _⟩ => exact (W6_out m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨4, Finset.mem_univ _, e.symm⟩)
/-- After the next stretch of host operations. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- No pallas_call has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c
abbrev 𝒱H : Variants := Variants.none
abbrev LH : GSem nD τ sig → Finset Unit := fun _ => ∅
abbrev lvH : GSem nD τ sig → Unit → ℕ := fun _ _ => 0
/-- What rides beside the buffers through every item: the generator register at some state and nothing owed. -/
abbrev RH (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pallas_call 0 over the thread state: entered from every unscoped buffer at `W1`, left at `W2`.  Its arrays
    are split out of the unscoped buffers at entry and put back at their exit contents; the generator register passes
    through the invariant; nothing is owed; the kernel has no semaphore of its own. -/
def reg0 : Pipeline.RegionSeg (pcfgs (F := F)) admH (pdats m ρ) () defs₀ 𝒱H LH lvH 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m ρ) c (V2 m ρ c) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`.  Its arrays
    are split out of the unscoped buffers at entry and put back at their exit contents; the generator register passes
    through the invariant; nothing is owed; the kernel has no semaphore of its own. -/
def reg1 : Pipeline.RegionSeg (pcfgs (F := F)) admH (pdats m ρ) () defs₀ 𝒱H LH lvH 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) c (V4 m ρ c) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`.  Its arrays
    are split out of the unscoped buffers at entry and put back at their exit contents; the generator register passes
    through the invariant; nothing is owed; the kernel has no semaphore of its own. -/
def reg2 : Pipeline.RegionSeg (pcfgs (F := F)) admH (pdats m ρ) () defs₀ 𝒱H LH lvH 2 where
  win := winFacts2.to₀
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := entry2 (V5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (V5 m ρ) c (V6 m ρ c) (hF2 m ρ c) (hrest2 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's seven items in order. -/
abbrev segs : List (Pipeline.Seg (pcfgs (F := F)) admH (pdats m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every weakly fair execution of the program terminates, nothing faulting, and the final memory holds every unscoped
    buffer at the contents `W7` the items leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱H LH lvH m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ RH c) ⊢ _ from by
        iintro ⟨Hh, Hp, HO⟩
        isplitl [Hh Hp]
        · isplitl [Hh]; · iexact Hh
          iexact Hp
        iexact HO)⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## What the host stretches leave unchanged, and the arguments at the end -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- No item writes an argument array: it ends as launched. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
    (W4_of_ne m ρ c main_arg0 (by decide)).trans <| (W3_of m ρ c main_arg0 (by decide)).trans <| (W2_of_ne m ρ c main_arg0 (by decide)).trans <|
    (W1_of m ρ c main_arg0 (by decide)).trans rfl
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
    (W4_of_ne m ρ c main_arg1 (by decide)).trans <| (W3_of m ρ c main_arg1 (by decide)).trans <| (W2_of_ne m ρ c main_arg1 (by decide)).trans <|
    (W1_of m ρ c main_arg1 (by decide)).trans rfl

/-- The program runs to the end without fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W7_main_arg0 m ρ c),
    (h c _ (mem_uc main_arg1 (by decide))).trans (W7_main_arg1 m ρ c)⟩) (run m ρ)

end Cert.Kernel.Hand

end
-- ==== Proof.KIRuns0.lean ====
/-
  The kernel body of pallas_call 0 run once in each of its two control cases, on whole staging memrefs.

  The body tests whether the grid point is the first one.  At the first point it overwrites the one-element
  accumulator block with zero and then adds the block's total to it; at every other point it adds the block's total
  to what the accumulator block already holds.  Each run ends with the four input blocks as they were and the
  accumulator block holding the pieces the run's stores wrote, last store first.
-/
import proofs.«150827_j20048907337956_1_alg».proof.Proof.Gen.KernelIdeal.Launch
import proofs.«150827_j20048907337956_1_alg».proof.Proof.Gen.KernelIdeal.Skeleton
import proofs.«150827_j20048907337956_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "both grid coordinates are zero", as the printed scalar chain computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-- One staging buffer of the accumulator window, through which its contents are stated. -/
abbrev VO0 : View sig .tc .vmem S1x1 .f32 := (Memref.whole cc0_stg4_0 : Memref sig .tc .vmem S1x1 .f32).view

/-- Each window's current staging memref at point `t`, as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

set_option maxHeartbeats 1000000 in
/-- The first point: the accumulator block, whatever it held, is zeroed and the block's total added. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_block_sum_kernel i arg2 harg2 arg3 harg3 arg4 harg4 arg5 harg5 arg6 harg6) K } := by
  refine ⟨?_, fun E K => ?run⟩
  case run =>
    simp only [cc0__rbf_block_sum_kernel_eq_skeleton]; unfold cc0__rbf_block_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Every other point: the block's total is added to what the accumulator block holds (`xo4`). -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_block_sum_kernel i arg2 harg2 arg3 harg3 arg4 harg4 arg5 harg5 arg6 harg6) K } := by
  refine ⟨?_, fun E K => ?run⟩
  case run =>
    simp only [cc0__rbf_block_sum_kernel_eq_skeleton]; unfold cc0__rbf_block_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIBody0.lean ====
/-
  Pallas_call 0 from the contents `V` its region is entered at: what each grid point's body is handed and what it
  leaves.

  An input window's staging buffer holds its block of the array at every point.  The accumulator window's one-element
  block is never written back before the last point, so at every point after the first its staging buffer holds what
  the point before left: `outsAt0 n` is the accumulator after point `n`, by recursion on `n`.
-/
import proofs.«150827_j20048907337956_1_alg».proof.Proof.KIRuns0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first point's stores cover the accumulator block. -/
theorem cover0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the first point leaves in the accumulator block. -/
def out0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) : Vec F S1x1 .f32 :=
  VO0.read (Elt F) (VO0.writes (Elt F) VO0.junk (kernelRun0_A c i arg2 harg2 arg3 harg3 arg4 harg4 arg5 harg5 arg6 harg6 hc0 x0 x1 x2 x3).1)

/-- A later point's store covers the accumulator block. -/
theorem cover0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) (y : S1x1.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1.size (by sl_kernel_rfl) y

/-- What a later point leaves in the accumulator block, from what it found there. -/
def out0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) : Vec F S1x1 .f32 :=
  VO0.read (Elt F) (VO0.writes (Elt F) VO0.junk (kernelRun0_B c i arg2 harg2 arg3 harg3 arg4 harg4 arg5 harg5 arg6 harg6 hc0 x0 x1 x2 x3 xo4).1)

/-- The accumulator block after the body at point `n`. -/
def outsAt0 (c : Dev nD) : (n : ℕ) → n < cfg0.N → Vec F S1x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact absurd rfl h0
  | succ n => exact rfl

/-- The share of its array each input window holds: the two windows that read one array hold a half each. -/
def q0 : Fin cfg0.W → PosShare TreeShare := fun w => match w with
  | ⟨0, _⟩ => fullShare.left
  | ⟨1, _⟩ => fullShare.right
  | _ => fullShare

/-- The proof data of pipeline 0 on core `c`: the arrays as the region finds them; after the body at point `t`
    each input's buffer at its block and the accumulator's at `outsAt0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the first point the accumulator's staging buffer holds what the point before left: the block is written
    back at the last point only. -/
theorem before0_4_B (c : Dev nD) (t : Fin cfg0.N) (h0 : ¬t.val = 0) (d) :
    (dat0 V c).before 4 t d = outsAt0 V c (t.val - 1) (Nat.lt_of_le_of_lt (Nat.sub_le _ _) t.isLt) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the point is the first or not; at a later point the
    accumulator holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · rw [outsAt0_B V c t h0]
    simp only [before0_4_B V c t h0]
    unfold out0_B
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KIRuns1.lean ====
/-
  The kernel body of pallas_call 1 run once in each of its two control cases, on whole staging memrefs.

  The body tests whether the grid point is the first one.  At the first point it overwrites the one-element
  accumulator block with zero and then adds the block's total to it; at every other point it adds the block's total
  to what the accumulator block already holds.  Each run ends with the four input blocks as they were and the
  accumulator block holding the pieces the run's stores wrote, last store first.
-/
import proofs.«150827_j20048907337956_1_alg».proof.Proof.Gen.KernelIdeal.Launch
import proofs.«150827_j20048907337956_1_alg».proof.Proof.Gen.KernelIdeal.Skeleton
import proofs.«150827_j20048907337956_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "both grid coordinates are zero", as the printed scalar chain computes it. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond1 : ∀ t : Fin cfg1.N, cond1 (grid1.coords t) ↔ t.val = 0 :=
  (by decide +kernel : ∀ t : Fin grid1.N, cond1 (grid1.coords t) ↔ t.val = 0)

/-- One staging buffer of the accumulator window, through which its contents are stated. -/
abbrev VO1 : View sig .tc .vmem S1x1 .f32 := (Memref.whole cc1_stg4_0 : Memref sig .tc .vmem S1x1 .f32).view

/-- Each window's current staging memref at point `t`, as the pipeline passes it, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

set_option maxHeartbeats 1000000 in
/-- The first point: the accumulator block, whatever it held, is zeroed and the block's total added. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_block_sum_kernel i arg2 harg2 arg3 harg3 arg4 harg4 arg5 harg5 arg6 harg6) K } := by
  refine ⟨?_, fun E K => ?run⟩
  case run =>
    simp only [cc1__rbf_block_sum_kernel_eq_skeleton]; unfold cc1__rbf_block_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Every other point: the block's total is added to what the accumulator block holds (`xo4`). -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_block_sum_kernel i arg2 harg2 arg3 harg3 arg4 harg4 arg5 harg5 arg6 harg6) K } := by
  refine ⟨?_, fun E K => ?run⟩
  case run =>
    simp only [cc1__rbf_block_sum_kernel_eq_skeleton]; unfold cc1__rbf_block_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIBody1.lean ====
/-
  Pallas_call 1 from the contents `V` its region is entered at: what each grid point's body is handed and what it
  leaves.

  An input window's staging buffer holds its block of the array at every point.  The accumulator window's one-element
  block is never written back before the last point, so at every point after the first its staging buffer holds what
  the point before left: `outsAt1 n` is the accumulator after point `n`, by recursion on `n`.
-/
import proofs.«150827_j20048907337956_1_alg».proof.Proof.KIRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first point's stores cover the accumulator block. -/
theorem cover1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first point leaves in the accumulator block. -/
def out1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) : Vec F S1x1 .f32 :=
  VO1.read (Elt F) (VO1.writes (Elt F) VO1.junk (kernelRun1_A c i arg2 harg2 arg3 harg3 arg4 harg4 arg5 harg5 arg6 harg6 hc0 x0 x1 x2 x3).1)

/-- A later point's store covers the accumulator block. -/
theorem cover1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) (y : S1x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1.size (by sl_kernel_rfl) y

/-- What a later point leaves in the accumulator block, from what it found there. -/
def out1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) : Vec F S1x1 .f32 :=
  VO1.read (Elt F) (VO1.writes (Elt F) VO1.junk (kernelRun1_B c i arg2 harg2 arg3 harg3 arg4 harg4 arg5 harg5 arg6 harg6 hc0 x0 x1 x2 x3 xo4).1)

/-- The accumulator block after the body at point `n`. -/
def outsAt1 (c : Dev nD) : (n : ℕ) → n < cfg1.N → Vec F S1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr rfl) (iblk1 V c 0 ⟨0, hn⟩) (iblk1 V c 1 ⟨0, hn⟩) (iblk1 V c 2 ⟨0, hn⟩) (iblk1 V c 3 ⟨0, hn⟩)
  | n + 1, hn => out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact absurd rfl h0
  | succ n => exact rfl

/-- The share of its array each input window holds: the two windows that read one array hold a half each. -/
def q1 : Fin cfg1.W → PosShare TreeShare := fun w => match w with
  | ⟨0, _⟩ => fullShare.left
  | ⟨1, _⟩ => fullShare.right
  | _ => fullShare

/-- The proof data of pipeline 1 on core `c`: the arrays as the region finds them; after the body at point `t`
    each input's buffer at its block and the accumulator's at `outsAt1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After the first point the accumulator's staging buffer holds what the point before left: the block is written
    back at the last point only. -/
theorem before1_4_B (c : Dev nD) (t : Fin cfg1.N) (h0 : ¬t.val = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t h0 (Bool.eq_false_iff.mpr fun h => by have := (flush1_4 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the point is the first or not; at a later point the
    accumulator holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [outsAt1_A V c t h0]
    unfold out1_A
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _)
  · rw [outsAt1_B V c t h0]
    simp only [before1_4_B V c t h0]
    unfold out1_B
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KIRuns2.lean ====
/-
  The kernel body of pallas_call 2 run once in each of its two control cases, on whole staging memrefs.

  The body tests whether the grid point is the first one.  At the first point it overwrites the one-element
  accumulator block with zero and then adds the block's total to it; at every other point it adds the block's total
  to what the accumulator block already holds.  Each run ends with the four input blocks as they were and the
  accumulator block holding the pieces the run's stores wrote, last store first.
-/
import proofs.«150827_j20048907337956_1_alg».proof.Proof.Gen.KernelIdeal.Launch
import proofs.«150827_j20048907337956_1_alg».proof.Proof.Gen.KernelIdeal.Skeleton
import proofs.«150827_j20048907337956_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "both grid coordinates are zero", as the printed scalar chain computes it. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond2 : ∀ t : Fin cfg2.N, cond2 (grid2.coords t) ↔ t.val = 0 :=
  (by decide +kernel : ∀ t : Fin grid2.N, cond2 (grid2.coords t) ↔ t.val = 0)

/-- One staging buffer of the accumulator window, through which its contents are stated. -/
abbrev VO2 : View sig .tc .vmem S1x1 .f32 := (Memref.whole cc2_stg4_0 : Memref sig .tc .vmem S1x1 .f32).view

/-- Each window's current staging memref at point `t`, as the pipeline passes it, and its wholeness. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)

set_option maxHeartbeats 1000000 in
/-- The first point: the accumulator block, whatever it held, is zeroed and the block's total added. -/
noncomputable def kernelRun2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_block_sum_kernel i arg2 harg2 arg3 harg3 arg4 harg4 arg5 harg5 arg6 harg6) K } := by
  refine ⟨?_, fun E K => ?run⟩
  case run =>
    simp only [cc2__rbf_block_sum_kernel_eq_skeleton]; unfold cc2__rbf_block_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Every other point: the block's total is added to what the accumulator block holds (`xo4`). -/
noncomputable def kernelRun2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_block_sum_kernel i arg2 harg2 arg3 harg3 arg4 harg4 arg5 harg5 arg6 harg6) K } := by
  refine ⟨?_, fun E K => ?run⟩
  case run =>
    simp only [cc2__rbf_block_sum_kernel_eq_skeleton]; unfold cc2__rbf_block_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIBody2.lean ====
/-
  Pallas_call 2 from the contents `V` its region is entered at: what each grid point's body is handed and what it
  leaves.

  An input window's staging buffer holds its block of the array at every point.  The accumulator window's one-element
  block is never written back before the last point, so at every point after the first its staging buffer holds what
  the point before left: `outsAt2 n` is the accumulator after point `n`, by recursion on `n`.
-/
import proofs.«150827_j20048907337956_1_alg».proof.Proof.KIRuns2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first point's stores cover the accumulator block. -/
theorem cover2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) (y : S1x1.Idx) :
    ∃ pc ∈ (kernelRun2_A c i arg2 harg2 arg3 harg3 arg4 harg4 arg5 harg5 arg6 harg6 hc0 x0 x1 x2 x3).1, y ∈ pc.1.set :=
  View.cover_of_tiledL (kernelRun2_A c i arg2 harg2 arg3 harg3 arg4 harg4 arg5 harg5 arg6 harg6 hc0 x0 x1 x2 x3).1 S1x1.size (by sl_kernel_rfl) y

/-- What the first point leaves in the accumulator block. -/
def out2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) : Vec F S1x1 .f32 :=
  VO2.read (Elt F) (VO2.writes (Elt F) VO2.junk (kernelRun2_A c i arg2 harg2 arg3 harg3 arg4 harg4 arg5 harg5 arg6 harg6 hc0 x0 x1 x2 x3).1)

/-- A later point's store covers the accumulator block. -/
theorem cover2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) (y : S1x1.Idx) :
    ∃ pc ∈ (kernelRun2_B c i arg2 harg2 arg3 harg3 arg4 harg4 arg5 harg5 arg6 harg6 hc0 x0 x1 x2 x3 xo4).1, y ∈ pc.1.set :=
  View.cover_of_tiledL (kernelRun2_B c i arg2 harg2 arg3 harg3 arg4 harg4 arg5 harg5 arg6 harg6 hc0 x0 x1 x2 x3 xo4).1 S1x1.size (by sl_kernel_rfl) y

/-- What a later point leaves in the accumulator block, from what it found there. -/
def out2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) : Vec F S1x1 .f32 :=
  VO2.read (Elt F) (VO2.writes (Elt F) VO2.junk (kernelRun2_B c i arg2 harg2 arg3 harg3 arg4 harg4 arg5 harg5 arg6 harg6 hc0 x0 x1 x2 x3 xo4).1)

/-- The accumulator block after the body at point `n`. -/
def outsAt2 (c : Dev nD) : (n : ℕ) → n < cfg2.N → Vec F S1x1 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2 ⟨0, hn⟩).mpr rfl) (iblk2 V c 0 ⟨0, hn⟩) (iblk2 V c 1 ⟨0, hn⟩) (iblk2 V c 2 ⟨0, hn⟩) (iblk2 V c 3 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem outsAt2_B (c : Dev nD) (t : Fin cfg2.N) (h0 : ¬t.val = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact absurd rfl h0
  | succ n => exact rfl

/-- Every window holds its array whole. -/
def q2 : Fin cfg2.W → PosShare TreeShare := fun _ => fullShare

/-- The proof data of pipeline 2 on core `c`: the arrays as the region finds them; after the body at point `t`
    each input's buffer at its block and the accumulator's at `outsAt2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- After the first point the accumulator's staging buffer holds what the point before left: the block is written
    back at the last point only. -/
theorem before2_4_B (c : Dev nD) (t : Fin cfg2.N) (h0 : ¬t.val = 0) (d) :
    (dat2 V c).before 4 t d = outsAt2 V c (t.val - 1) (Nat.lt_of_le_of_lt (Nat.sub_le _ _) t.isLt) := by
  have hN : t.val < 64 := lt_of_lt_of_eq t.isLt (show cfg2.N = 64 from N_2)
  rw [Dat.before_out_kept _ 4 rfl t h0 (Bool.eq_false_iff.mpr fun h => by have := (flush2_4 _).mp h; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' memrefs hold their blocks; the point is the first or not; at a later point the
    accumulator holds what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A c _ _ _ _ _ _ _ _ _ _ _ _ _ _ _ _)
  · rw [outsAt2_B V c t h0]
    simp only [before2_4_B V c t h0]
    unfold out2_B
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KIArr.lean ====
/-
  The arrays of each pallas_call as part of the core's unscoped buffers: taken out at the region's entry and put back
  at its exit.  Where a call hands one array to two input windows, the array's ownership is halved between them at
  entry and the halves are rejoined at exit; an input array ends as it was entered.
-/
import proofs.«150827_j20048907337956_1_alg».proof.Proof.KIBody0
import proofs.«150827_j20048907337956_1_alg».proof.Proof.KIBody1
import proofs.«150827_j20048907337956_1_alg».proof.Proof.KIBody2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (c : Dev nD) (G : (b : Ref sig .tc) → Buf (Elt F) ((c : Thread nD τ).loc b))

/-! ## Pallas_call 0 -/

/-- The distinct buffers behind its windows' arrays. -/
theorem image0 : Finset.univ.image (Pipeline.arrRef spec0) = ({main_arg0, main_v2, main_v6, main_v7} : Finset (Ref sig .tc)) := by decide

theorem arrBufs0_eq : (Pipeline.arrBufs (Ix := Unit) (Name := ℕ) (U := UR sig nD τ) (Lvl := ℕ) spec0 c G : sProp 𝕄)
    = iprop((((c : Thread nD τ).loc main_arg0) ↦{fullShare} G main_arg0) ∗ (((c : Thread nD τ).loc main_v2) ↦{fullShare} G main_v2) ∗ (((c : Thread nD τ).loc main_v6) ↦{fullShare} G main_v6) ∗ (((c : Thread nD τ).loc main_v7) ↦{fullShare} G main_v7)) := by
  unfold Pipeline.arrBufs
  rw [image0, bigSep_insert (by decide), bigSep_insert (by decide), bigSep_insert (by decide), bigSep_singleton]
  rfl

/-- The pipeline's arrays at contents read off `G`, window by window: the two windows on `main_arg0` hold a half of it each. -/
theorem arrays0_eq : ((dat0 V c).arrays (fun w => G (Pipeline.arrRef spec0 w)) : sProp 𝕄)
    = iprop((((c : Thread nD τ).loc main_arg0) ↦{fullShare.left} G main_arg0) ∗ (((c : Thread nD τ).loc main_arg0) ↦{fullShare.right} G main_arg0) ∗ (((c : Thread nD τ).loc main_v2) ↦{fullShare} G main_v2) ∗ (((c : Thread nD τ).loc main_v6) ↦{fullShare} G main_v6) ∗ (((c : Thread nD τ).loc main_v7) ↦{fullShare} G main_v7)) := by
  unfold Dat.arrays
  rw [bigSep_W0]
  rw [(arr_whole0 0).set_eq_univ, (arr_whole0 2).set_eq_univ, (arr_whole0 3).set_eq_univ, (arr_whole0 4).set_eq_univ]
  rfl

/-- ENTRY: the core's unscoped buffers at `V` are the pipeline's arrays at their entry contents and the rest. -/
theorem entry0 : (unscopedBufs (Ix := Unit) (Name := ℕ) (U := UR sig nD τ) (Lvl := ℕ) c (V c) : sProp 𝕄)
    ⊢ iprop((dat0 V c).arrays ((dat0 V c).arrAt · 0) ∗ Pipeline.unscopedRest spec0 c (V c)) := by
  rw [show (unscopedBufs (Ix := Unit) (Name := ℕ) (U := UR sig nD τ) (Lvl := ℕ) c (V c) : sProp 𝕄) = iprop(Pipeline.arrBufs spec0 c (V c) ∗ Pipeline.unscopedRest spec0 c (V c)) from
    Pipeline.unscopedBufs_split₀ cfgs 0 winFacts₀0.arr_unscoped c (V c), arrBufs0_eq]
  rw [show ((dat0 V c).arrAt · 0) = (fun w => V c (Pipeline.arrRef spec0 w)) from rfl, arrays0_eq V c (V c)]
  iintro ⟨⟨Ha, Hb, Hc, Hd⟩, Hr⟩
  ihave Hsp := (pointsTo_share (PosShare.mem_left_op_right fullShare)).1 $$ Ha
  icases Hsp with ⟨HaL, HaR⟩
  isplitr [Hr]
  ·
    isplitl [HaL]; · iexact HaL
    isplitl [HaR]; · iexact HaR
    isplitl [Hb]; · iexact Hb
    isplitl [Hc]; · iexact Hc
    iexact Hd
  iexact Hr

/-- EXIT: the arrays at their final contents and the rest as entered are the core's unscoped buffers at contents `G`
    that agree with the arrays' final contents and, off the arrays, with `V`. -/
theorem exit0 (hF : ∀ w, (dat0 V c).arrAt w cfg0.N = G (Pipeline.arrRef spec0 w))
    (hrest : ∀ b, b ∉ Finset.univ.image (Pipeline.arrRef spec0) → G b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c G : sProp 𝕄) := by
  rw [show (unscopedBufs (Ix := Unit) (Name := ℕ) (U := UR sig nD τ) (Lvl := ℕ) c G : sProp 𝕄) = iprop(Pipeline.arrBufs spec0 c G ∗ Pipeline.unscopedRest spec0 c G) from
    Pipeline.unscopedBufs_split₀ cfgs 0 winFacts₀0.arr_unscoped c G, arrBufs0_eq]
  rw [show ((dat0 V c).arrAt · cfg0.N) = (fun w => G (Pipeline.arrRef spec0 w)) from funext hF, arrays0_eq V c G]
  rw [show Pipeline.unscopedRest (Ix := Unit) (Name := ℕ) (U := UR sig nD τ) (Lvl := ℕ) spec0 c (V c) = Pipeline.unscopedRest spec0 c G from by
    unfold Pipeline.unscopedRest
    exact bigSep_congr fun b hb => by rw [hrest b (Finset.mem_sdiff.mp hb).2]]
  iintro ⟨⟨HaL, HaR, Hb, Hc, Hd⟩, Hr⟩
  ihave Ha := (pointsTo_share (PosShare.mem_left_op_right fullShare)).2 $$ [HaL HaR]
  · isplitl [HaL]; · iexact HaL
    iexact HaR
  isplitr [Hr]
  ·
    isplitl [Ha]; · iexact Ha
    isplitl [Hb]; · iexact Hb
    isplitl [Hc]; · iexact Hc
    iexact Hd
  iexact Hr

/-! ## Pallas_call 1 -/

/-- The distinct buffers behind its windows' arrays. -/
theorem image1 : Finset.univ.image (Pipeline.arrRef spec1) = ({main_arg1, main_v11, main_v15, main_v16} : Finset (Ref sig .tc)) := by decide

theorem arrBufs1_eq : (Pipeline.arrBufs (Ix := Unit) (Name := ℕ) (U := UR sig nD τ) (Lvl := ℕ) spec1 c G : sProp 𝕄)
    = iprop((((c : Thread nD τ).loc main_arg1) ↦{fullShare} G main_arg1) ∗ (((c : Thread nD τ).loc main_v11) ↦{fullShare} G main_v11) ∗ (((c : Thread nD τ).loc main_v15) ↦{fullShare} G main_v15) ∗ (((c : Thread nD τ).loc main_v16) ↦{fullShare} G main_v16)) := by
  unfold Pipeline.arrBufs
  rw [image1, bigSep_insert (by decide), bigSep_insert (by decide), bigSep_insert (by decide), bigSep_singleton]
  rfl

/-- The pipeline's arrays at contents read off `G`, window by window: the two windows on `main_arg1` hold a half of it each. -/
theorem arrays1_eq : ((dat1 V c).arrays (fun w => G (Pipeline.arrRef spec1 w)) : sProp 𝕄)
    = iprop((((c : Thread nD τ).loc main_arg1) ↦{fullShare.left} G main_arg1) ∗ (((c : Thread nD τ).loc main_arg1) ↦{fullShare.right} G main_arg1) ∗ (((c : Thread nD τ).loc main_v11) ↦{fullShare} G main_v11) ∗ (((c : Thread nD τ).loc main_v15) ↦{fullShare} G main_v15) ∗ (((c : Thread nD τ).loc main_v16) ↦{fullShare} G main_v16)) := by
  unfold Dat.arrays
  rw [bigSep_W1]
  rw [(arr_whole1 0).set_eq_univ, (arr_whole1 2).set_eq_univ, (arr_whole1 3).set_eq_univ, (arr_whole1 4).set_eq_univ]
  rfl

/-- ENTRY: the core's unscoped buffers at `V` are the pipeline's arrays at their entry contents and the rest. -/
theorem entry1 : (unscopedBufs (Ix := Unit) (Name := ℕ) (U := UR sig nD τ) (Lvl := ℕ) c (V c) : sProp 𝕄)
    ⊢ iprop((dat1 V c).arrays ((dat1 V c).arrAt · 0) ∗ Pipeline.unscopedRest spec1 c (V c)) := by
  rw [show (unscopedBufs (Ix := Unit) (Name := ℕ) (U := UR sig nD τ) (Lvl := ℕ) c (V c) : sProp 𝕄) = iprop(Pipeline.arrBufs spec1 c (V c) ∗ Pipeline.unscopedRest spec1 c (V c)) from
    Pipeline.unscopedBufs_split₀ cfgs 1 winFacts₀1.arr_unscoped c (V c), arrBufs1_eq]
  rw [show ((dat1 V c).arrAt · 0) = (fun w => V c (Pipeline.arrRef spec1 w)) from rfl, arrays1_eq V c (V c)]
  iintro ⟨⟨Ha, Hb, Hc, Hd⟩, Hr⟩
  ihave Hsp := (pointsTo_share (PosShare.mem_left_op_right fullShare)).1 $$ Ha
  icases Hsp with ⟨HaL, HaR⟩
  isplitr [Hr]
  ·
    isplitl [HaL]; · iexact HaL
    isplitl [HaR]; · iexact HaR
    isplitl [Hb]; · iexact Hb
    isplitl [Hc]; · iexact Hc
    iexact Hd
  iexact Hr

/-- EXIT: the arrays at their final contents and the rest as entered are the core's unscoped buffers at contents `G`
    that agree with the arrays' final contents and, off the arrays, with `V`. -/
theorem exit1 (hF : ∀ w, (dat1 V c).arrAt w cfg1.N = G (Pipeline.arrRef spec1 w))
    (hrest : ∀ b, b ∉ Finset.univ.image (Pipeline.arrRef spec1) → G b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c G : sProp 𝕄) := by
  rw [show (unscopedBufs (Ix := Unit) (Name := ℕ) (U := UR sig nD τ) (Lvl := ℕ) c G : sProp 𝕄) = iprop(Pipeline.arrBufs spec1 c G ∗ Pipeline.unscopedRest spec1 c G) from
    Pipeline.unscopedBufs_split₀ cfgs 1 winFacts₀1.arr_unscoped c G, arrBufs1_eq]
  rw [show ((dat1 V c).arrAt · cfg1.N) = (fun w => G (Pipeline.arrRef spec1 w)) from funext hF, arrays1_eq V c G]
  rw [show Pipeline.unscopedRest (Ix := Unit) (Name := ℕ) (U := UR sig nD τ) (Lvl := ℕ) spec1 c (V c) = Pipeline.unscopedRest spec1 c G from by
    unfold Pipeline.unscopedRest
    exact bigSep_congr fun b hb => by rw [hrest b (Finset.mem_sdiff.mp hb).2]]
  iintro ⟨⟨HaL, HaR, Hb, Hc, Hd⟩, Hr⟩
  ihave Ha := (pointsTo_share (PosShare.mem_left_op_right fullShare)).2 $$ [HaL HaR]
  · isplitl [HaL]; · iexact HaL
    iexact HaR
  isplitr [Hr]
  ·
    isplitl [Ha]; · iexact Ha
    isplitl [Hb]; · iexact Hb
    isplitl [Hc]; · iexact Hc
    iexact Hd
  iexact Hr

/-! ## Pallas_call 2 -/

/-- The distinct buffers behind its windows' arrays. -/
theorem image2 : Finset.univ.image (Pipeline.arrRef spec2) = ({main_arg0, main_arg1, main_v20, main_v24, main_v25} : Finset (Ref sig .tc)) := by decide

theorem arrBufs2_eq : (Pipeline.arrBufs (Ix := Unit) (Name := ℕ) (U := UR sig nD τ) (Lvl := ℕ) spec2 c G : sProp 𝕄)
    = iprop((((c : Thread nD τ).loc main_arg0) ↦{fullShare} G main_arg0) ∗ (((c : Thread nD τ).loc main_arg1) ↦{fullShare} G main_arg1) ∗ (((c : Thread nD τ).loc main_v20) ↦{fullShare} G main_v20) ∗ (((c : Thread nD τ).loc main_v24) ↦{fullShare} G main_v24) ∗ (((c : Thread nD τ).loc main_v25) ↦{fullShare} G main_v25)) := by
  unfold Pipeline.arrBufs
  rw [image2, bigSep_insert (by decide), bigSep_insert (by decide), bigSep_insert (by decide), bigSep_insert (by decide), bigSep_singleton]
  rfl

/-- The pipeline's arrays at contents read off `G`, window by window. -/
theorem arrays2_eq : ((dat2 V c).arrays (fun w => G (Pipeline.arrRef spec2 w)) : sProp 𝕄)
    = iprop((((c : Thread nD τ).loc main_arg0) ↦{fullShare} G main_arg0) ∗ (((c : Thread nD τ).loc main_arg1) ↦{fullShare} G main_arg1) ∗ (((c : Thread nD τ).loc main_v20) ↦{fullShare} G main_v20) ∗ (((c : Thread nD τ).loc main_v24) ↦{fullShare} G main_v24) ∗ (((c : Thread nD τ).loc main_v25) ↦{fullShare} G main_v25)) := by
  unfold Dat.arrays
  rw [bigSep_W2]
  rw [(arr_whole2 0).set_eq_univ, (arr_whole2 1).set_eq_univ, (arr_whole2 2).set_eq_univ, (arr_whole2 3).set_eq_univ, (arr_whole2 4).set_eq_univ]
  rfl

/-- ENTRY: the core's unscoped buffers at `V` are the pipeline's arrays at their entry contents and the rest. -/
theorem entry2 : (unscopedBufs (Ix := Unit) (Name := ℕ) (U := UR sig nD τ) (Lvl := ℕ) c (V c) : sProp 𝕄)
    ⊢ iprop((dat2 V c).arrays ((dat2 V c).arrAt · 0) ∗ Pipeline.unscopedRest spec2 c (V c)) := by
  rw [show (unscopedBufs (Ix := Unit) (Name := ℕ) (U := UR sig nD τ) (Lvl := ℕ) c (V c) : sProp 𝕄) = iprop(Pipeline.arrBufs spec2 c (V c) ∗ Pipeline.unscopedRest spec2 c (V c)) from
    Pipeline.unscopedBufs_split₀ cfgs 2 winFacts2.arr_unscoped c (V c), arrBufs2_eq]
  rw [show ((dat2 V c).arrAt · 0) = (fun w => V c (Pipeline.arrRef spec2 w)) from rfl, arrays2_eq V c (V c)]

/-- EXIT: the arrays at their final contents and the rest as entered are the core's unscoped buffers at contents `G`
    that agree with the arrays' final contents and, off the arrays, with `V`. -/
theorem exit2 (hF : ∀ w, (dat2 V c).arrAt w cfg2.N = G (Pipeline.arrRef spec2 w))
    (hrest : ∀ b, b ∉ Finset.univ.image (Pipeline.arrRef spec2) → G b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs (Ix := Unit) (Name := ℕ) (U := UR sig nD τ) (Lvl := ℕ) c G : sProp 𝕄) := by
  rw [show (unscopedBufs (Ix := Unit) (Name := ℕ) (U := UR sig nD τ) (Lvl := ℕ) c G : sProp 𝕄) = iprop(Pipeline.arrBufs spec2 c G ∗ Pipeline.unscopedRest spec2 c G) from
    Pipeline.unscopedBufs_split₀ cfgs 2 winFacts2.arr_unscoped c G, arrBufs2_eq]
  rw [show ((dat2 V c).arrAt · cfg2.N) = (fun w => G (Pipeline.arrRef spec2 w)) from funext hF, arrays2_eq V c G]
  rw [show Pipeline.unscopedRest (Ix := Unit) (Name := ℕ) (U := UR sig nD τ) (Lvl := ℕ) spec2 c (V c) = Pipeline.unscopedRest spec2 c G from by
    unfold Pipeline.unscopedRest
    exact bigSep_congr fun b hb => by rw [hrest b (Finset.mem_sdiff.mp hb).2]]

end

end Cert.KernelIdeal.Hand

end
-- ==== Proof.KIFrame.lean ====
/-
  The whole program run: three pallas_calls among four stretches of host operations.

  The contents of the core's unscoped buffers are followed from the launch through every item: a stretch of host
  operations applies its operations; a pallas_call changes its one-element result array to what its single write-back
  leaves and nothing else.  Every weakly fair execution terminates without fault, and the final memory holds every
  unscoped buffer at the last of these contents.
-/
import proofs.«150827_j20048907337956_1_alg».proof.Proof.KIArr
import proofs.«150827_j20048907337956_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pallas_call 0's exit: its result array at what the pipeline's one write-back leaves, every other buffer as entered. -/
def W2 (c : Dev nD) : Valuation τ sig (Elt F) :=
  Function.update (W1 m ρ c) (Proc.devRef .tc main_v7) ((dat0 (V1 m ρ) c).arrAt 4 cfg0.N)
theorem W2_out (c : Dev nD) : W2 m ρ c (Proc.devRef .tc main_v7) = (dat0 (V1 m ρ) c).arrAt 4 cfg0.N := by
  unfold W2; exact Function.update_self ..
theorem W2_of_ne (c : Dev nD) (b : Ref sig .tc) (hb : b ≠ main_v7) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- At the exit each of the region's arrays holds what the pipeline leaves — an input array its entry contents, the
    result array its write-back — and every other buffer what it held at entry. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c _ (by decide)).symm
  | ⟨1, _⟩ => exact (((dat0 (V1 m ρ) c).arrAt_in 1 rfl _).trans (A_eq0 (V1 m ρ) c 1)).trans (W2_of_ne m ρ c _ (by decide)).symm
  | ⟨2, _⟩ => exact (((dat0 (V1 m ρ) c).arrAt_in 2 rfl _).trans (A_eq0 (V1 m ρ) c 2)).trans (W2_of_ne m ρ c _ (by decide)).symm
  | ⟨3, _⟩ => exact (((dat0 (V1 m ρ) c).arrAt_in 3 rfl _).trans (A_eq0 (V1 m ρ) c 3)).trans (W2_of_ne m ρ c _ (by decide)).symm
  | ⟨4, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)
/-- After the next stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pallas_call 1's exit: its result array at what the pipeline's one write-back leaves, every other buffer as entered. -/
def W4 (c : Dev nD) : Valuation τ sig (Elt F) :=
  Function.update (W3 m ρ c) (Proc.devRef .tc main_v16) ((dat1 (V3 m ρ) c).arrAt 4 cfg1.N)
theorem W4_out (c : Dev nD) : W4 m ρ c (Proc.devRef .tc main_v16) = (dat1 (V3 m ρ) c).arrAt 4 cfg1.N := by
  unfold W4; exact Function.update_self ..
theorem W4_of_ne (c : Dev nD) (b : Ref sig .tc) (hb : b ≠ main_v16) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b
/-- At the exit each of the region's arrays holds what the pipeline leaves — an input array its entry contents, the
    result array its write-back — and every other buffer what it held at entry. -/
theorem hF1 (c : Dev nD) (w : Fin cfg1.W) : (dat1 (V3 m ρ) c).arrAt w cfg1.N = V4 m ρ c (Pipeline.arrRef spec1 w) := by
  match w with
  | ⟨0, _⟩ => exact (((dat1 (V3 m ρ) c).arrAt_in 0 rfl _).trans (A_eq1 (V3 m ρ) c 0)).trans (W4_of_ne m ρ c _ (by decide)).symm
  | ⟨1, _⟩ => exact (((dat1 (V3 m ρ) c).arrAt_in 1 rfl _).trans (A_eq1 (V3 m ρ) c 1)).trans (W4_of_ne m ρ c _ (by decide)).symm
  | ⟨2, _⟩ => exact (((dat1 (V3 m ρ) c).arrAt_in 2 rfl _).trans (A_eq1 (V3 m ρ) c 2)).trans (W4_of_ne m ρ c _ (by decide)).symm
  | ⟨3, _⟩ => exact (((dat1 (V3 m ρ) c).arrAt_in 3 rfl _).trans (A_eq1 (V3 m ρ) c 3)).trans (W4_of_ne m ρ c _ (by decide)).symm
  | ⟨4, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨4, Finset.mem_univ _, e.symm⟩)
/-- After the next stretch of host operations. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At pallas_call 2's exit: its result array at what the pipeline's one write-back leaves, every other buffer as entered. -/
def W6 (c : Dev nD) : Valuation τ sig (Elt F) :=
  Function.update (W5 m ρ c) (Proc.devRef .tc main_v25) ((dat2 (V5 m ρ) c).arrAt 4 cfg2.N)
theorem W6_out (c : Dev nD) : W6 m ρ c (Proc.devRef .tc main_v25) = (dat2 (V5 m ρ) c).arrAt 4 cfg2.N := by
  unfold W6; exact Function.update_self ..
theorem W6_of_ne (c : Dev nD) (b : Ref sig .tc) (hb : b ≠ main_v25) :
    W6 m ρ c (Proc.devRef .tc b) = W5 m ρ c (Proc.devRef .tc b) := by
  unfold W6; exact Function.update_of_ne (StableHlo.devRef_ne_of_ne hb) ..
abbrev V6 : (c : Dev nD) → (b : Ref sig .tc) → Buf (Elt F) ((c : Thread nD τ).loc b) := fun c b => W6 m ρ c b
/-- At the exit each of the region's arrays holds what the pipeline leaves — an input array its entry contents, the
    result array its write-back — and every other buffer what it held at entry. -/
theorem hF2 (c : Dev nD) (w : Fin cfg2.W) : (dat2 (V5 m ρ) c).arrAt w cfg2.N = V6 m ρ c (Pipeline.arrRef spec2 w) := by
  match w with
  | ⟨0, _⟩ => exact (((dat2 (V5 m ρ) c).arrAt_in 0 rfl _).trans (A_eq2 (V5 m ρ) c 0)).trans (W6_of_ne m ρ c _ (by decide)).symm
  | ⟨1, _⟩ => exact (((dat2 (V5 m ρ) c).arrAt_in 1 rfl _).trans (A_eq2 (V5 m ρ) c 1)).trans (W6_of_ne m ρ c _ (by decide)).symm
  | ⟨2, _⟩ => exact (((dat2 (V5 m ρ) c).arrAt_in 2 rfl _).trans (A_eq2 (V5 m ρ) c 2)).trans (W6_of_ne m ρ c _ (by decide)).symm
  | ⟨3, _⟩ => exact (((dat2 (V5 m ρ) c).arrAt_in 3 rfl _).trans (A_eq2 (V5 m ρ) c 3)).trans (W6_of_ne m ρ c _ (by decide)).symm
  | ⟨4, _⟩ => exact (W6_out m ρ c).symm
theorem hrest2 (c : Dev nD) : ∀ b, b ∉ Finset.univ.image (Pipeline.arrRef spec2) → V6 m ρ c b = V5 m ρ c b :=
  fun b hb => W6_of_ne m ρ c b fun e => hb (Finset.mem_image.mpr ⟨4, Finset.mem_univ _, e.symm⟩)
/-- After the next stretch of host operations. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- No pallas_call has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c
abbrev 𝒱H : Variants := Variants.none
abbrev LH : GSem nD τ sig → Finset Unit := fun _ => ∅
abbrev lvH : GSem nD τ sig → Unit → ℕ := fun _ _ => 0
/-- What rides beside the buffers through every item: the generator register at some state and nothing owed. -/
abbrev RH (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pallas_call 0 over the thread state: entered from every unscoped buffer at `W1`, left at `W2`.  Its arrays
    are split out of the unscoped buffers at entry and put back at their exit contents; the generator register passes
    through the invariant; nothing is owed; the kernel has no semaphore of its own. -/
def reg0 : Pipeline.RegionSeg (pcfgs (F := F)) admH (pdats m ρ) () defs₀ 𝒱H LH lvH 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m ρ) c (V2 m ρ c) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`.  Its arrays
    are split out of the unscoped buffers at entry and put back at their exit contents; the generator register passes
    through the invariant; nothing is owed; the kernel has no semaphore of its own. -/
def reg1 : Pipeline.RegionSeg (pcfgs (F := F)) admH (pdats m ρ) () defs₀ 𝒱H LH lvH 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) c (V4 m ρ c) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`.  Its arrays
    are split out of the unscoped buffers at entry and put back at their exit contents; the generator register passes
    through the invariant; nothing is owed; the kernel has no semaphore of its own. -/
def reg2 : Pipeline.RegionSeg (pcfgs (F := F)) admH (pdats m ρ) () defs₀ 𝒱H LH lvH 2 where
  win := winFacts2.to₀
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := entry2 (V5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (V5 m ρ) c (V6 m ρ c) (hF2 m ρ c) (hrest2 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The program's seven items in order. -/
abbrev segs : List (Pipeline.Seg (pcfgs (F := F)) admH (pdats m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every weakly fair execution of the program terminates, nothing faulting, and the final memory holds every unscoped
    buffer at the contents `W7` the items leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱H LH lvH m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ RH c) ⊢ _ from by
        iintro ⟨Hh, Hp, HO⟩
        isplitl [Hh Hp]
        · isplitl [Hh]; · iexact Hh
          iexact Hp
        iexact HO)⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## What the host stretches leave unchanged, and the arguments at the end -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- No item writes an argument array: it ends as launched. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
    (W4_of_ne m ρ c main_arg0 (by decide)).trans <| (W3_of m ρ c main_arg0 (by decide)).trans <| (W2_of_ne m ρ c main_arg0 (by decide)).trans <|
    (W1_of m ρ c main_arg0 (by decide)).trans rfl
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
    (W4_of_ne m ρ c main_arg1 (by decide)).trans <| (W3_of m ρ c main_arg1 (by decide)).trans <| (W2_of_ne m ρ c main_arg1 (by decide)).trans <|
    (W1_of m ρ c main_arg1 (by decide)).trans rfl

/-- The program runs to the end without fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W7_main_arg0 m ρ c),
    (h c _ (mem_uc main_arg1 (by decide))).trans (W7_main_arg1 m ρ c)⟩) (run m ρ)

end Cert.KernelIdeal.Hand

end
-- ==== Proof.RbfSpec.lean ====
/-
  The mathematics both programs compute, over the extended reals, with arrays as plain functions of their coordinates.

  For two tables of rows `X, Y : rows → 128 → EReal` the pair value at `(i, j)` is
  `exp(-max(|X i|² + |Y j|² - 2 ⟨X i, Y j⟩, 0) / 2)`, built from the two squared norms and the inner product.
  One program negates by subtracting from zero and halves by multiplying with the word of one half (`kElt`); the other
  negates and divides by the word of two (`rElt`).  `pairSum` adds the pair values over all `8192 × 8192` pairs;
  `blockTotal` adds them over one `1024 × 1024` block given the block's rows and its squared norms; `mmd` is the final
  scalar combination of the three pair sums, each divided by the word of `2^26`.
-/
import Idealize.ShloMosaic.PureOps.Ideal
import Idealize.ShloMosaic.PureOps.Ideal.Laws

noncomputable section

namespace Cert.Rbf

open Idealize.ShloMosaic

/-- The word of `0.0`, `0.5`, `2.0` and `2^26` as extended reals. -/
abbrev w0 : EReal := Ideal.ofBits .f32 0x00000000#32
abbrev wHalf : EReal := Ideal.ofBits .f32 0x3F000000#32
abbrev w2 : EReal := Ideal.ofBits .f32 0x40000000#32
abbrev wN : EReal := Ideal.ofBits .f32 0x4C800000#32

/-- The pair value from squared norms `s`, `t` and inner product `g`: negation as `0 - ·`, halving as `· * 0.5`. -/
def kElt (s t g : EReal) : EReal := Ideal.exp ((w0 - max ((s + t) - w2 * g) w0) * wHalf)

/-- The same value with negation as `-·` and halving as the quotient by `2`. -/
def rElt (s t g : EReal) : EReal := Ideal.exp (Ideal.div (-(max ((s + t) - w2 * g) w0)) w2)

/-- The squared norm of row `i`. -/
def sq {n : Nat} (X : Fin n → Fin 128 → EReal) (i : Fin n) : EReal := ∑ d : Fin 128, X i d * X i d

/-- The inner product of row `i` of `X` and row `j` of `Y`. -/
def gram {n k : Nat} (X : Fin n → Fin 128 → EReal) (Y : Fin k → Fin 128 → EReal) (i : Fin n) (j : Fin k) : EReal :=
  ∑ d : Fin 128, X i d * Y j d

/-- The sum of the pair values over all pairs of rows. -/
def pairSum (X Y : Fin 8192 → Fin 128 → EReal) : EReal :=
  ∑ i : Fin 8192, ∑ j : Fin 8192, rElt (sq X i) (sq Y j) (gram X Y i j)

/-- The sum of the pair values over one block: `x1`, `x2` its `1024` rows each, `n1`, `n2` their squared norms as given. -/
def blockTotal (x1 x2 : Fin 1024 → Fin 128 → EReal) (n1 n2 : Fin 1024 → EReal) : EReal :=
  ∑ r : Fin 1024, ∑ c : Fin 1024, kElt (n1 r) (n2 c) (gram x1 x2 r c)

/-- Row `r` of block `b` of a table of `8192` rows. -/
def blockRow (b : Fin 8) (r : Fin 1024) : Fin 8192 := ⟨1024 * b.val + r.val, by omega⟩

/-- The final scalar: the three pair sums, each divided by `2^26`, combined as `(a + b) - 2 c`. -/
def mmd (a b c : EReal) : EReal := (Ideal.div a wN + Ideal.div b wN) - w2 * Ideal.div c wN

end Cert.Rbf

end
-- ==== Proof.KIBlocks.lean ====
/-
  The blocks the kernel body is handed, read at an index of the whole arrays.

  Each call runs over an `8 × 8` grid; point `t` has row block `t / 8` and column block `t % 8`. The first
  operand's window and the column of squared norms follow the row block, the second operand's window and the row of
  squared norms follow the column block. An entry `(r, d)` of a block of `1024` rows sits in its table at row
  `1024 · block + r`: on every axis an element's coordinate is the block index times the block's size plus the
  coordinate inside the block.
-/
import proofs.«150827_j20048907337956_1_alg».proof.Proof.KIBody0
import proofs.«150827_j20048907337956_1_alg».proof.Proof.KIBody1
import proofs.«150827_j20048907337956_1_alg».proof.Proof.KIBody2
import proofs.«150827_j20048907337956_1_alg».proof.Proof.RbfSpec
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The row block of point `n` of the `8 × 8` grid. -/
def rowBlk (n : ℕ) (h : n < 64) : Fin 8 := ⟨n / 8, by omega⟩

/-- The column block of point `n` of the `8 × 8` grid. -/
def colBlk (n : ℕ) : Fin 8 := ⟨n % 8, Nat.mod_lt _ (by omega)⟩

theorem rowBlk_val (n : ℕ) (h : n < 64) : (rowBlk n h).val = n / 8 := rfl
theorem colBlk_val (n : ℕ) : (colBlk n).val = n % 8 := rfl

/-! ## Call 0 -/

/-- The printed index maps of call 0, decided over its `8 × 8` grid: the row windows follow the first grid
    coordinate, the column windows the second, the accumulator window stays at its one block. -/
theorem idx_facts0 : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = 0 :=
  (by decide +kernel : ∀ t : Fin grid0.N, _)

/-- Call 0's grid has `64` points. -/
theorem lt64_0 (t : Fin cfg0.N) : t.val < 64 := lt_of_lt_of_eq t.isLt (show cfg0.N = 64 from N_0)

section
variable (V : (c : Dev nD) → (b : Ref sig .tc) → Buf (Elt F) ((c : Thread nD τ).loc b))

/-- Window 0 at point `t` holds the rows of block `t / 8` of its table. -/
theorem iblk0_0_apply (c : Dev nD) (t : Fin cfg0.N) (r : Fin 1024) (d : Fin 128) :
    iblk0 V c 0 t (ix2 r d) = V c main_arg0 (ix2 (Cert.Rbf.blockRow (rowBlk t.val (lt64_0 t)) r) d) := by
  obtain ⟨e0, e1, -⟩ := idx_facts0 t
  show V c main_arg0 (((cfg0.win 0).blk t).view.emb (ix2 r d)) = _
  refine congrArg (V c main_arg0) ?_
  funext a; apply Fin.ext
  match a with
  | ⟨0, _⟩ => show win0_0.index t (0 : Fin 2) * 1024 + 1 * r.val = 1024 * (t.val / 8) + r.val; omega
  | ⟨1, _⟩ => show win0_0.index t (1 : Fin 2) * 128 + 1 * d.val = d.val; omega

/-- Window 1 at point `t` holds the rows of block `t % 8` of its table. -/
theorem iblk0_1_apply (c : Dev nD) (t : Fin cfg0.N) (r : Fin 1024) (d : Fin 128) :
    iblk0 V c 1 t (ix2 r d) = V c main_arg0 (ix2 (Cert.Rbf.blockRow (colBlk t.val) r) d) := by
  obtain ⟨-, -, e2, e3, -⟩ := idx_facts0 t
  show V c main_arg0 (((cfg0.win 1).blk t).view.emb (ix2 r d)) = _
  refine congrArg (V c main_arg0) ?_
  funext a; apply Fin.ext
  match a with
  | ⟨0, _⟩ => show win0_1.index t (0 : Fin 2) * 1024 + 1 * r.val = 1024 * (t.val % 8) + r.val; omega
  | ⟨1, _⟩ => show win0_1.index t (1 : Fin 2) * 128 + 1 * d.val = d.val; omega

/-- Window 2 at point `t` holds the entries of block `t / 8` of the column of squared norms. -/
theorem iblk0_2_apply (c : Dev nD) (t : Fin cfg0.N) (r : Fin 1024) :
    iblk0 V c 2 t (ix2 r (0 : Fin 1)) = V c main_v2 (ix2 (Cert.Rbf.blockRow (rowBlk t.val (lt64_0 t)) r) (0 : Fin 1)) := by
  obtain ⟨-, -, -, -, e4, e5, -⟩ := idx_facts0 t
  show V c main_v2 (((cfg0.win 2).blk t).view.emb (ix2 r (0 : Fin 1))) = _
  refine congrArg (V c main_v2) ?_
  funext a; apply Fin.ext
  match a with
  | ⟨0, _⟩ => show win0_2.index t (0 : Fin 2) * 1024 + 1 * r.val = 1024 * (t.val / 8) + r.val; omega
  | ⟨1, _⟩ => show win0_2.index t (1 : Fin 2) * 1 + 1 * 0 = 0; omega

/-- Window 3 at point `t` holds the entries of block `t % 8` of the row of squared norms. -/
theorem iblk0_3_apply (c : Dev nD) (t : Fin cfg0.N) (q : Fin 1024) :
    iblk0 V c 3 t (ix2 (0 : Fin 1) q) = V c main_v6 (ix2 (0 : Fin 1) (Cert.Rbf.blockRow (colBlk t.val) q)) := by
  obtain ⟨-, -, -, -, -, -, e6, e7, -⟩ := idx_facts0 t
  show V c main_v6 (((cfg0.win 3).blk t).view.emb (ix2 (0 : Fin 1) q)) = _
  refine congrArg (V c main_v6) ?_
  funext a; apply Fin.ext
  match a with
  | ⟨0, _⟩ => show win0_3.index t (0 : Fin 2) * 1 + 1 * 0 = 0; omega
  | ⟨1, _⟩ => show win0_3.index t (1 : Fin 2) * 1024 + 1 * q.val = 1024 * (t.val % 8) + q.val; omega

end

/-! ## Call 1 -/

/-- The printed index maps of call 1, decided over its `8 × 8` grid: the row windows follow the first grid
    coordinate, the column windows the second, the accumulator window stays at its one block. -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = 0 :=
  (by decide +kernel : ∀ t : Fin grid1.N, _)

/-- Call 1's grid has `64` points. -/
theorem lt64_1 (t : Fin cfg1.N) : t.val < 64 := lt_of_lt_of_eq t.isLt (show cfg1.N = 64 from N_1)

section
variable (V : (c : Dev nD) → (b : Ref sig .tc) → Buf (Elt F) ((c : Thread nD τ).loc b))

/-- Window 0 at point `t` holds the rows of block `t / 8` of its table. -/
theorem iblk1_0_apply (c : Dev nD) (t : Fin cfg1.N) (r : Fin 1024) (d : Fin 128) :
    iblk1 V c 0 t (ix2 r d) = V c main_arg1 (ix2 (Cert.Rbf.blockRow (rowBlk t.val (lt64_1 t)) r) d) := by
  obtain ⟨e0, e1, -⟩ := idx_facts1 t
  show V c main_arg1 (((cfg1.win 0).blk t).view.emb (ix2 r d)) = _
  refine congrArg (V c main_arg1) ?_
  funext a; apply Fin.ext
  match a with
  | ⟨0, _⟩ => show win1_0.index t (0 : Fin 2) * 1024 + 1 * r.val = 1024 * (t.val / 8) + r.val; omega
  | ⟨1, _⟩ => show win1_0.index t (1 : Fin 2) * 128 + 1 * d.val = d.val; omega

/-- Window 1 at point `t` holds the rows of block `t % 8` of its table. -/
theorem iblk1_1_apply (c : Dev nD) (t : Fin cfg1.N) (r : Fin 1024) (d : Fin 128) :
    iblk1 V c 1 t (ix2 r d) = V c main_arg1 (ix2 (Cert.Rbf.blockRow (colBlk t.val) r) d) := by
  obtain ⟨-, -, e2, e3, -⟩ := idx_facts1 t
  show V c main_arg1 (((cfg1.win 1).blk t).view.emb (ix2 r d)) = _
  refine congrArg (V c main_arg1) ?_
  funext a; apply Fin.ext
  match a with
  | ⟨0, _⟩ => show win1_1.index t (0 : Fin 2) * 1024 + 1 * r.val = 1024 * (t.val % 8) + r.val; omega
  | ⟨1, _⟩ => show win1_1.index t (1 : Fin 2) * 128 + 1 * d.val = d.val; omega

/-- Window 2 at point `t` holds the entries of block `t / 8` of the column of squared norms. -/
theorem iblk1_2_apply (c : Dev nD) (t : Fin cfg1.N) (r : Fin 1024) :
    iblk1 V c 2 t (ix2 r (0 : Fin 1)) = V c main_v11 (ix2 (Cert.Rbf.blockRow (rowBlk t.val (lt64_1 t)) r) (0 : Fin 1)) := by
  obtain ⟨-, -, -, -, e4, e5, -⟩ := idx_facts1 t
  show V c main_v11 (((cfg1.win 2).blk t).view.emb (ix2 r (0 : Fin 1))) = _
  refine congrArg (V c main_v11) ?_
  funext a; apply Fin.ext
  match a with
  | ⟨0, _⟩ => show win1_2.index t (0 : Fin 2) * 1024 + 1 * r.val = 1024 * (t.val / 8) + r.val; omega
  | ⟨1, _⟩ => show win1_2.index t (1 : Fin 2) * 1 + 1 * 0 = 0; omega

/-- Window 3 at point `t` holds the entries of block `t % 8` of the row of squared norms. -/
theorem iblk1_3_apply (c : Dev nD) (t : Fin cfg1.N) (q : Fin 1024) :
    iblk1 V c 3 t (ix2 (0 : Fin 1) q) = V c main_v15 (ix2 (0 : Fin 1) (Cert.Rbf.blockRow (colBlk t.val) q)) := by
  obtain ⟨-, -, -, -, -, -, e6, e7, -⟩ := idx_facts1 t
  show V c main_v15 (((cfg1.win 3).blk t).view.emb (ix2 (0 : Fin 1) q)) = _
  refine congrArg (V c main_v15) ?_
  funext a; apply Fin.ext
  match a with
  | ⟨0, _⟩ => show win1_3.index t (0 : Fin 2) * 1 + 1 * 0 = 0; omega
  | ⟨1, _⟩ => show win1_3.index t (1 : Fin 2) * 1024 + 1 * q.val = 1024 * (t.val % 8) + q.val; omega

end

/-! ## Call 2 -/

/-- The printed index maps of call 2, decided over its `8 × 8` grid: the row windows follow the first grid
    coordinate, the column windows the second, the accumulator window stays at its one block. -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = 0 ∧ win2_4.index t (1 : Fin 2) = 0 :=
  (by decide +kernel : ∀ t : Fin grid2.N, _)

/-- Call 2's grid has `64` points. -/
theorem lt64_2 (t : Fin cfg2.N) : t.val < 64 := lt_of_lt_of_eq t.isLt (show cfg2.N = 64 from N_2)

section
variable (V : (c : Dev nD) → (b : Ref sig .tc) → Buf (Elt F) ((c : Thread nD τ).loc b))

/-- Window 0 at point `t` holds the rows of block `t / 8` of its table. -/
theorem iblk2_0_apply (c : Dev nD) (t : Fin cfg2.N) (r : Fin 1024) (d : Fin 128) :
    iblk2 V c 0 t (ix2 r d) = V c main_arg0 (ix2 (Cert.Rbf.blockRow (rowBlk t.val (lt64_2 t)) r) d) := by
  obtain ⟨e0, e1, -⟩ := idx_facts2 t
  show V c main_arg0 (((cfg2.win 0).blk t).view.emb (ix2 r d)) = _
  refine congrArg (V c main_arg0) ?_
  funext a; apply Fin.ext
  match a with
  | ⟨0, _⟩ => show win2_0.index t (0 : Fin 2) * 1024 + 1 * r.val = 1024 * (t.val / 8) + r.val; omega
  | ⟨1, _⟩ => show win2_0.index t (1 : Fin 2) * 128 + 1 * d.val = d.val; omega

/-- Window 1 at point `t` holds the rows of block `t % 8` of its table. -/
theorem iblk2_1_apply (c : Dev nD) (t : Fin cfg2.N) (r : Fin 1024) (d : Fin 128) :
    iblk2 V c 1 t (ix2 r d) = V c main_arg1 (ix2 (Cert.Rbf.blockRow (colBlk t.val) r) d) := by
  obtain ⟨-, -, e2, e3, -⟩ := idx_facts2 t
  show V c main_arg1 (((cfg2.win 1).blk t).view.emb (ix2 r d)) = _
  refine congrArg (V c main_arg1) ?_
  funext a; apply Fin.ext
  match a with
  | ⟨0, _⟩ => show win2_1.index t (0 : Fin 2) * 1024 + 1 * r.val = 1024 * (t.val % 8) + r.val; omega
  | ⟨1, _⟩ => show win2_1.index t (1 : Fin 2) * 128 + 1 * d.val = d.val; omega

/-- Window 2 at point `t` holds the entries of block `t / 8` of the column of squared norms. -/
theorem iblk2_2_apply (c : Dev nD) (t : Fin cfg2.N) (r : Fin 1024) :
    iblk2 V c 2 t (ix2 r (0 : Fin 1)) = V c main_v20 (ix2 (Cert.Rbf.blockRow (rowBlk t.val (lt64_2 t)) r) (0 : Fin 1)) := by
  obtain ⟨-, -, -, -, e4, e5, -⟩ := idx_facts2 t
  show V c main_v20 (((cfg2.win 2).blk t).view.emb (ix2 r (0 : Fin 1))) = _
  refine congrArg (V c main_v20) ?_
  funext a; apply Fin.ext
  match a with
  | ⟨0, _⟩ => show win2_2.index t (0 : Fin 2) * 1024 + 1 * r.val = 1024 * (t.val / 8) + r.val; omega
  | ⟨1, _⟩ => show win2_2.index t (1 : Fin 2) * 1 + 1 * 0 = 0; omega

/-- Window 3 at point `t` holds the entries of block `t % 8` of the row of squared norms. -/
theorem iblk2_3_apply (c : Dev nD) (t : Fin cfg2.N) (q : Fin 1024) :
    iblk2 V c 3 t (ix2 (0 : Fin 1) q) = V c main_v24 (ix2 (0 : Fin 1) (Cert.Rbf.blockRow (colBlk t.val) q)) := by
  obtain ⟨-, -, -, -, -, -, e6, e7, -⟩ := idx_facts2 t
  show V c main_v24 (((cfg2.win 3).blk t).view.emb (ix2 (0 : Fin 1) q)) = _
  refine congrArg (V c main_v24) ?_
  funext a; apply Fin.ext
  match a with
  | ⟨0, _⟩ => show win2_3.index t (0 : Fin 2) * 1 + 1 * 0 = 0; omega
  | ⟨1, _⟩ => show win2_3.index t (1 : Fin 2) * 1024 + 1 * q.val = 1024 * (t.val % 8) + q.val; omega

end

end Cert.KernelIdeal.Hand

end
-- ==== Proof.KIFlush.lean ====
/-
  The result array of each call after its whole grid.

  The accumulator window of a call is one `1 × 1` block, the whole of its `1 × 1` array, and it is written back at
  the last grid point only. So after the grid the array holds what the body left in the accumulator at the last
  point, point `63` of the `64`.
-/
import proofs.«150827_j20048907337956_1_alg».proof.Proof.KIBlocks
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- A function on the `1 × 1` shape takes one value. -/
theorem unit_apply_eq {α : Type} (f : S1x1.Idx → α) (i j : S1x1.Idx) : f i = f j := by
  have e : ∀ k : S1x1.Idx, k = ix2 (0 : Fin 1) (0 : Fin 1) := fun k => by
    funext ax
    match ax with
    | ⟨0, _⟩ => exact Fin.ext (by have := idx2_lt0 k; show (k 0).val = 0; omega)
    | ⟨1, _⟩ => exact Fin.ext (by have := idx2_lt1 k; show (k 1).val = 0; omega)
  rw [e i, e j]

/-! ## Call 0 -/

/-- The last point of call 0's grid. -/
theorem lt63_0 : 63 < cfg0.N := lt_of_lt_of_eq (by omega) (show cfg0.N = 64 from N_0).symm

section
variable (V : (c : Dev nD) → (b : Ref sig .tc) → Buf (Elt F) ((c : Thread nD τ).loc b))

/-- The accumulator after point `n` depends on `n` only. -/
theorem outsAt0_congr (c : Dev nD) (n : ℕ) (hn : n < cfg0.N) (e : n = 63) :
    outsAt0 V c n hn = outsAt0 V c 63 lt63_0 := by
  subst e; rfl

/-- THE RESULT OF CALL 0: after the whole grid its one-entry array holds the accumulator as the last point left it.
    Only the last point writes the block back, what it writes is that accumulator, and the one block is the whole
    array. -/
theorem final0_4 (c : Dev nD) : (dat0 V c).arrAt 4 cfg0.N = outsAt0 V c 63 lt63_0 := by
  refine (dat0 V c).arrAt_eq_of_cover 4 (outsAt0 V c 63 lt63_0) (fun t hf => ?_) (fun i => ?_)
  · have h63 : t.val = 63 := by
      have h1 := (flush0_4 t).mp hf
      have h2 := lt64_0 t
      omega
    show (cfg0.win 4).cut (grid0.coords t) ((dat0 V c).after 4 t) = _
    rw [after0_4, outsAt0_congr V c t.val t.isLt h63]
    funext y
    exact unit_apply_eq (outsAt0 V c 63 lt63_0) _ _
  · refine ⟨⟨63, lt63_0⟩, (flush0_4 _).mpr rfl, ?_⟩
    obtain ⟨-, -, -, -, -, -, -, -, e8, e9⟩ := idx_facts0 ⟨63, lt63_0⟩
    show i ∈ ((View.whole main_v7).slice (win0_4.rect ⟨63, lt63_0⟩)).set
    rw [View.set_slice_whole, Rect.mem_set_unit]
    intro a
    match a with
    | ⟨0, _⟩ =>
      show win0_4.index ⟨63, lt63_0⟩ (0 : Fin 2) * 1 ≤ (i 0).val
        ∧ (i 0).val < win0_4.index ⟨63, lt63_0⟩ (0 : Fin 2) * 1 + 1
      have h : (i 0).val < 1 := (i 0).isLt
      omega
    | ⟨1, _⟩ =>
      show win0_4.index ⟨63, lt63_0⟩ (1 : Fin 2) * 1 ≤ (i 1).val
        ∧ (i 1).val < win0_4.index ⟨63, lt63_0⟩ (1 : Fin 2) * 1 + 1
      have h : (i 1).val < 1 := (i 1).isLt
      omega

end

/-! ## Call 1 -/

/-- The last point of call 1's grid. -/
theorem lt63_1 : 63 < cfg1.N := lt_of_lt_of_eq (by omega) (show cfg1.N = 64 from N_1).symm

section
variable (V : (c : Dev nD) → (b : Ref sig .tc) → Buf (Elt F) ((c : Thread nD τ).loc b))

/-- The accumulator after point `n` depends on `n` only. -/
theorem outsAt1_congr (c : Dev nD) (n : ℕ) (hn : n < cfg1.N) (e : n = 63) :
    outsAt1 V c n hn = outsAt1 V c 63 lt63_1 := by
  subst e; rfl

/-- THE RESULT OF CALL 1: after the whole grid its one-entry array holds the accumulator as the last point left it.
    Only the last point writes the block back, what it writes is that accumulator, and the one block is the whole
    array. -/
theorem final1_4 (c : Dev nD) : (dat1 V c).arrAt 4 cfg1.N = outsAt1 V c 63 lt63_1 := by
  refine (dat1 V c).arrAt_eq_of_cover 4 (outsAt1 V c 63 lt63_1) (fun t hf => ?_) (fun i => ?_)
  · have h63 : t.val = 63 := by
      have h1 := (flush1_4 t).mp hf
      have h2 := lt64_1 t
      omega
    show (cfg1.win 4).cut (grid1.coords t) ((dat1 V c).after 4 t) = _
    rw [after1_4, outsAt1_congr V c t.val t.isLt h63]
    funext y
    exact unit_apply_eq (outsAt1 V c 63 lt63_1) _ _
  · refine ⟨⟨63, lt63_1⟩, (flush1_4 _).mpr rfl, ?_⟩
    obtain ⟨-, -, -, -, -, -, -, -, e8, e9⟩ := idx_facts1 ⟨63, lt63_1⟩
    show i ∈ ((View.whole main_v16).slice (win1_4.rect ⟨63, lt63_1⟩)).set
    rw [View.set_slice_whole, Rect.mem_set_unit]
    intro a
    match a with
    | ⟨0, _⟩ =>
      show win1_4.index ⟨63, lt63_1⟩ (0 : Fin 2) * 1 ≤ (i 0).val
        ∧ (i 0).val < win1_4.index ⟨63, lt63_1⟩ (0 : Fin 2) * 1 + 1
      have h : (i 0).val < 1 := (i 0).isLt
      omega
    | ⟨1, _⟩ =>
      show win1_4.index ⟨63, lt63_1⟩ (1 : Fin 2) * 1 ≤ (i 1).val
        ∧ (i 1).val < win1_4.index ⟨63, lt63_1⟩ (1 : Fin 2) * 1 + 1
      have h : (i 1).val < 1 := (i 1).isLt
      omega

end

/-! ## Call 2 -/

/-- The last point of call 2's grid. -/
theorem lt63_2 : 63 < cfg2.N := lt_of_lt_of_eq (by omega) (show cfg2.N = 64 from N_2).symm

section
variable (V : (c : Dev nD) → (b : Ref sig .tc) → Buf (Elt F) ((c : Thread nD τ).loc b))

/-- The accumulator after point `n` depends on `n` only. -/
theorem outsAt2_congr (c : Dev nD) (n : ℕ) (hn : n < cfg2.N) (e : n = 63) :
    outsAt2 V c n hn = outsAt2 V c 63 lt63_2 := by
  subst e; rfl

/-- THE RESULT OF CALL 2: after the whole grid its one-entry array holds the accumulator as the last point left it.
    Only the last point writes the block back, what it writes is that accumulator, and the one block is the whole
    array. -/
theorem final2_4 (c : Dev nD) : (dat2 V c).arrAt 4 cfg2.N = outsAt2 V c 63 lt63_2 := by
  refine (dat2 V c).arrAt_eq_of_cover 4 (outsAt2 V c 63 lt63_2) (fun t hf => ?_) (fun i => ?_)
  · have h63 : t.val = 63 := by
      have h1 := (flush2_4 t).mp hf
      have h2 := lt64_2 t
      omega
    show (cfg2.win 4).cut (grid2.coords t) ((dat2 V c).after 4 t) = _
    rw [after2_4, outsAt2_congr V c t.val t.isLt h63]
    funext y
    exact unit_apply_eq (outsAt2 V c 63 lt63_2) _ _
  · refine ⟨⟨63, lt63_2⟩, (flush2_4 _).mpr rfl, ?_⟩
    obtain ⟨-, -, -, -, -, -, -, -, e8, e9⟩ := idx_facts2 ⟨63, lt63_2⟩
    show i ∈ ((View.whole main_v25).slice (win2_4.rect ⟨63, lt63_2⟩)).set
    rw [View.set_slice_whole, Rect.mem_set_unit]
    intro a
    match a with
    | ⟨0, _⟩ =>
      show win2_4.index ⟨63, lt63_2⟩ (0 : Fin 2) * 1 ≤ (i 0).val
        ∧ (i 0).val < win2_4.index ⟨63, lt63_2⟩ (0 : Fin 2) * 1 + 1
      have h : (i 0).val < 1 := (i 0).isLt
      omega
    | ⟨1, _⟩ =>
      show win2_4.index ⟨63, lt63_2⟩ (1 : Fin 2) * 1 ≤ (i 1).val
        ∧ (i 1).val < win2_4.index ⟨63, lt63_2⟩ (1 : Fin 2) * 1 + 1
      have h : (i 1).val < 1 := (i 1).isLt
      omega

end

end Cert.KernelIdeal.Hand

end
-- ==== Proof.RbfNorms.lean ====
/-
  The squared norms the host computes before each call, read at an index over the extended reals.

  For a table `a` of `8192` rows the host multiplies `a` by itself entrywise, sums each row from the zero word,
  and views the `8192` sums as a column; reshaped, the same sums form a row. Entry `i` of either is the squared
  norm of row `i` of `a`.
-/
import proofs.«150827_j20048907337956_1_alg».proof.KernelIdeal
import proofs.«150827_j20048907337956_1_alg».proof.Proof.RbfSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf

open Idealize.ShloMosaic Idealize.ShloMosaic.ValueIdx Cert.KernelIdeal

/-- The row sums of the entrywise square, from the zero word: entry `i` is the squared norm of row `i`. -/
theorem rowSquares_apply (a : FVec Ideal S8192x128 .f32) (hr : S8192x128.ReducesTo [1] S8192) (hS : 0 < S_.numel)
    (i : Fin 8192) :
    Host.reduceAdd (F := Ideal) (mulf a a) (constant (F := Ideal) S_ .f32 0x00000000#32) hr hS (ix1 i)
      = sq (fun i d => a (ix2 i d)) i := by
  have h : S8192x128.Reduces [1] S8192 := by decide
  refine (Ideal.hostReduceAdd_single hr h (mulf a a) (Ideal.ofBits .f32 0x00000000#32) (ix1 i)).trans ?_
  rw [Ideal.ofBits_zero_f32, zero_add]
  unfold sq
  refine Finset.sum_congr rfl fun d _ => ?_
  have e : h.lift (ix1 i) d = ix2 i d := by
    funext ax
    match ax with
    | ⟨0, _⟩ => rfl
    | ⟨1, _⟩ => rfl
  rw [e]
  rfl

/-- The column of squared norms: the row sums viewed as an `8192 × 1` table read, at `(i, 0)`, the squared norm
    of row `i`. -/
theorem sqCol_apply (a : FVec Ideal S8192x128 .f32) (hr : S8192x128.ReducesTo [1] S8192) (hS : 0 < S_.numel)
    (hb : S8192.BroadcastsInDim S8192x1 (![0] : Fin 1 → Fin S8192x1.rank)) (i : Fin 8192) :
    broadcastInDim S8192x1 ![0] hb
        (Host.reduceAdd (F := Ideal) (mulf a a) (constant (F := Ideal) S_ .f32 0x00000000#32) hr hS) (ix2 i (0 : Fin 1))
      = sq (fun i d => a (ix2 i d)) i := by
  rw [← rowSquares_apply a hr hS i]
  generalize Host.reduceAdd (F := Ideal) (mulf a a) (constant (F := Ideal) S_ .f32 0x00000000#32) hr hS = y
  refine broadcastInDim_apply _ hb y (ix2 i (0 : Fin 1)) (ix1 i) fun ax => ?_
  match ax with
  | ⟨0, _⟩ =>
    show i.val = if (8192 : ℕ) = 1 then 0 else i.val
    rw [if_neg (by omega)]

/-- An `8192 × 1` column reshaped to a `1 × 8192` row reads, at `(0, j)`, the column's entry `(j, 0)`. -/
theorem colToRow_apply {α : Type} (v : S8192x1.Idx → α) (hc : S8192x1.ShapeCasts S1x8192) (j : Fin 8192) :
    shapeCast S1x8192 v hc (ix2 (0 : Fin 1) j) = v (ix2 j (0 : Fin 1)) :=
  shapeCast_apply v hc _ _ (by
    rw [Shape.rowMajor_val_two, Shape.rowMajor_val_two]
    show j.val * 1 + 0 = 0 * 8192 + j.val
    omega)

/-- The row of squared norms: the column reshaped to `1 × 8192` reads, at `(0, j)`, the squared norm of row `j`. -/
theorem sqRow_apply (a : FVec Ideal S8192x128 .f32) (hr : S8192x128.ReducesTo [1] S8192) (hS : 0 < S_.numel)
    (hb : S8192.BroadcastsInDim S8192x1 (![0] : Fin 1 → Fin S8192x1.rank)) (hc : S8192x1.ShapeCasts S1x8192)
    (j : Fin 8192) :
    shapeCast S1x8192
        (broadcastInDim S8192x1 ![0] hb
          (Host.reduceAdd (F := Ideal) (mulf a a) (constant (F := Ideal) S_ .f32 0x00000000#32) hr hS)) hc
        (ix2 (0 : Fin 1) j)
      = sq (fun i d => a (ix2 i d)) j :=
  (colToRow_apply _ hc j).trans (sqCol_apply a hr hS hb j)

end Cert.Rbf

end
-- ==== Proof.RbfAlgebra.lean ====
/-
  Algebra over the extended reals relating the two spellings of the pair value, and the regrouping of the sum over
  all pairs of rows into the sums over the 8 × 8 blocks of 1024 × 1024 pairs.
-/
import proofs.«150827_j20048907337956_1_alg».proof.Proof.RbfSpec
import Mathlib.Algebra.BigOperators.Fin
import Mathlib.Logic.Equiv.Fin.Basic

noncomputable section

namespace Cert.Rbf

open Idealize.ShloMosaic

/-- The word of `0.0` denotes `0`. -/
theorem w0_eq : w0 = 0 := by
  simp [Ideal.ofBits, Ideal.ieee]

/-- The word of `0.5` denotes the real `1/2`. -/
theorem wHalf_eq : wHalf = ((1 / 2 : ℝ) : EReal) := by
  simp [Ideal.ofBits, Ideal.ieee, -EReal.coe_mul]; norm_num

/-- The word of `2.0` denotes the real `2`. -/
theorem w2_eq : w2 = ((2 : ℝ) : EReal) := by
  simp [Ideal.ofBits, Ideal.ieee, -EReal.coe_mul]; norm_num

/-- Subtracting from zero and multiplying by one half is negating and dividing by two, on every extended real. -/
theorem halve_eq (m : EReal) : (w0 - m) * wHalf = Ideal.div (-m) w2 := by
  rw [w0_eq, zero_sub, w2_eq, Ideal.div_coe (two_ne_zero) (-m), wHalf_eq]

/-- The two spellings of the pair value agree. -/
theorem kElt_eq_rElt (s t g : EReal) : kElt s t g = rElt s t g := by
  unfold kElt rElt
  rw [halve_eq]

/-- Rows of a table of `8192` rows, as pairs (block, row within the block). -/
def blockEquiv : Fin 8 × Fin 1024 ≃ Fin 8192 where
  toFun p := blockRow p.1 p.2
  invFun i := (⟨i.val / 1024, by omega⟩, ⟨i.val % 1024, by omega⟩)
  left_inv := by
    rintro ⟨⟨b, hb⟩, ⟨r, hr⟩⟩
    refine Prod.ext (Fin.ext ?_) (Fin.ext ?_)
    · show (1024 * b + r) / 1024 = b
      omega
    · show (1024 * b + r) % 1024 = r
      omega
  right_inv := by
    rintro ⟨i, hi⟩
    refine Fin.ext ?_
    show 1024 * (i / 1024) + i % 1024 = i
    omega

/-- A sum over `8192` rows is the sum over the `8` blocks of the sums over the `1024` rows of each block. -/
theorem sum_blocks {M : Type*} [AddCommMonoid M] (g : Fin 8192 → M) :
    ∑ i : Fin 8192, g i = ∑ b : Fin 8, ∑ r : Fin 1024, g (blockRow b r) :=
  (blockEquiv.sum_comp g).symm.trans (Fintype.sum_prod_type' (fun b r => g (blockRow b r)))

/-- A double sum over pairs of rows is the sum over pairs of blocks of the double sums over each block's pairs. -/
theorem sum_sum_blocks {M : Type*} [AddCommMonoid M] (f : Fin 8192 → Fin 8192 → M) :
    ∑ i : Fin 8192, ∑ j : Fin 8192, f i j =
      ∑ bi : Fin 8, ∑ bj : Fin 8, ∑ r : Fin 1024, ∑ c : Fin 1024, f (blockRow bi r) (blockRow bj c) :=
  calc ∑ i : Fin 8192, ∑ j : Fin 8192, f i j
      = ∑ bi : Fin 8, ∑ r : Fin 1024, ∑ j : Fin 8192, f (blockRow bi r) j := sum_blocks _
    _ = ∑ bi : Fin 8, ∑ r : Fin 1024, ∑ bj : Fin 8, ∑ c : Fin 1024, f (blockRow bi r) (blockRow bj c) :=
        Finset.sum_congr rfl fun _ _ => Finset.sum_congr rfl fun _ _ => sum_blocks _
    _ = ∑ bi : Fin 8, ∑ bj : Fin 8, ∑ r : Fin 1024, ∑ c : Fin 1024, f (blockRow bi r) (blockRow bj c) :=
        Finset.sum_congr rfl fun _ _ => Finset.sum_comm

/-- The sum of the pair values over all pairs of rows is the sum of the `8 × 8` block totals, each block taken with
its own rows and their squared norms. -/
theorem pairSum_blocks (X Y : Fin 8192 → Fin 128 → EReal) :
    pairSum X Y = ∑ bi : Fin 8, ∑ bj : Fin 8,
      blockTotal (fun r d => X (blockRow bi r) d) (fun c d => Y (blockRow bj c) d)
        (fun r => sq X (blockRow bi r)) (fun c => sq Y (blockRow bj c)) := by
  unfold pairSum blockTotal
  rw [sum_sum_blocks]
  refine Finset.sum_congr rfl fun bi _ => Finset.sum_congr rfl fun bj _ =>
    Finset.sum_congr rfl fun r _ => Finset.sum_congr rfl fun c _ => ?_
  rw [kElt_eq_rElt]
  rfl

end Cert.Rbf

end
-- ==== Proof.RbfReference.lean ====
/-
  The reference program's result is the specification: its scalar is `mmd` of the three pair sums of its two tables
  of rows.  The squared norms are its sums over the second axis of the elementwise squares, the inner products its
  matrix product of one table with the transpose of the other, the pair value its elementwise chain, and the pair sum
  its sum over both axes; each initial value is the word of zero and is absorbed.
-/
import proofs.«150827_j20048907337956_1_alg».proof.Proof.Gen.ReferenceIdeal.Read
import proofs.«150827_j20048907337956_1_alg».proof.Proof.RbfSpec
import proofs.«150827_j20048907337956_1_alg».proof.Proof.RbfAlgebra

noncomputable section

namespace Cert.Rbf

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A table of `8192 × 128` extended reals as a function of its row and its column. -/
def rows (x : (⟨S8192x128, .f32⟩ : BufTy).Contents (Elt Ideal)) : Fin 8192 → Fin 128 → EReal :=
  fun i d => x (ix2 i d)

theorem rows_def (x : (⟨S8192x128, .f32⟩ : BufTy).Contents (Elt Ideal)) : rows x = fun i d => x (ix2 i d) := rfl

/-- The sum over the second axis of the elementwise square is the squared norm of the row. -/
theorem v43_spec (x0 : (⟨S8192x128, .f32⟩ : BufTy).Contents (Elt Ideal)) (i : S8192.Idx) :
    val_main_v43 (F := Ideal) x0 i = sq (rows x0) (i 0) := by
  rw [val_main_v43_apply]
  show w0 + _ = _
  rw [w0_eq, zero_add]
  refine Finset.sum_congr rfl fun k _ => ?_
  have h : idx_main_v43 i k = ix2 (i 0) k :=
    funext fun a => Fin.ext (by match a with | ⟨0, _⟩ => rfl | ⟨1, _⟩ => rfl)
  rw [val_main_v42_apply, h]
  rfl

/-- The second table's squared norms are computed by the same operations. -/
theorem v46_spec (x1 : (⟨S8192x128, .f32⟩ : BufTy).Contents (Elt Ideal)) (i : S8192.Idx) :
    val_main_v46 (F := Ideal) x1 i = sq (rows x1) (i 0) :=
  v43_spec x1 i

/-- The matrix product of one table with the transpose of the other is the inner product of their rows. -/
theorem v53_spec (x0 x1 : (⟨S8192x128, .f32⟩ : BufTy).Contents (Elt Ideal)) (i : S8192x8192.Idx) :
    val_main_v53 (F := Ideal) x0 x1 i = gram (rows x0) (rows x1) (i 0) (i 1) := by
  rw [val_main_v53_apply]
  refine Finset.sum_congr rfl fun k _ => ?_
  have hl : lidx_main_v53 i k = ix2 (i 0) k :=
    funext fun a => Fin.ext (by match a with | ⟨0, _⟩ => rfl | ⟨1, _⟩ => rfl)
  have hr : idx_main_v52 (ridx_main_v53 i k) = ix2 (i 1) k :=
    funext fun a => Fin.ext (by match a with | ⟨0, _⟩ => rfl | ⟨1, _⟩ => rfl)
  rw [val_main_v52_apply, hl, hr]
  rfl

/-- The reference's pair value at `(i, j)`: squared norms broadcast along rows and columns, twice the inner product
subtracted, clamped at zero, negated, halved, exponentiated. -/
theorem v62_spec (x0 x1 : (⟨S8192x128, .f32⟩ : BufTy).Contents (Elt Ideal)) (i : S8192x8192.Idx) :
    val_main_v62 (F := Ideal) x0 x1 i
      = rElt (sq (rows x0) (i 0)) (sq (rows x1) (i 1)) (gram (rows x0) (rows x1) (i 0) (i 1)) := by
  rw [val_main_v62_apply, val_main_v61_apply, val_main_v59_apply, val_main_v58_apply, val_main_v56_apply,
    val_main_v51_apply, val_main_v49_apply, val_main_v44_apply, v43_spec,
    val_main_v50_apply, val_main_v48_apply, val_main_v47_apply, v46_spec,
    val_main_v55_apply, val_main_v54_apply, val_main_cst_11_apply, v53_spec,
    val_main_v57_apply, val_main_cst_12_apply, val_main_v60_apply, val_main_cst_13_apply]
  rfl

/-- The sum over both axes of the pair values is the pair sum. -/
theorem v68_spec (x0 x1 : (⟨S8192x128, .f32⟩ : BufTy).Contents (Elt Ideal)) (i : S_.Idx) :
    val_main_v68 (F := Ideal) x0 x1 i = pairSum (rows x0) (rows x1) := by
  rw [val_main_v68_apply]
  show w0 + _ = _
  rw [w0_eq, zero_add, sum_idx2]
  unfold pairSum
  exact Finset.sum_congr rfl fun a _ => Finset.sum_congr rfl fun b _ => v62_spec x0 x1 (ix2 a b)

/-- The pair sum of the first table with itself is computed by the same operations on one table. -/
theorem v63_spec (x0 : (⟨S8192x128, .f32⟩ : BufTy).Contents (Elt Ideal)) (i : S_.Idx) :
    val_main_v63 (F := Ideal) x0 i = pairSum (rows x0) (rows x0) :=
  v68_spec x0 x0 i

/-- Likewise the pair sum of the second table with itself. -/
theorem v65_spec (x1 : (⟨S8192x128, .f32⟩ : BufTy).Contents (Elt Ideal)) (i : S_.Idx) :
    val_main_v65 (F := Ideal) x1 i = pairSum (rows x1) (rows x1) :=
  v68_spec x1 x1 i

/-- The reference's result: each pair sum divided by the word of `2^26`, the first two added and twice the third
subtracted. -/
theorem val_main_v71_spec (x0 x1 : (⟨S8192x128, .f32⟩ : BufTy).Contents (Elt Ideal)) :
    val_main_v71 (F := Ideal) x0 x1
      = fun _ => mmd (pairSum (rows x0) (rows x0)) (pairSum (rows x1) (rows x1)) (pairSum (rows x0) (rows x1)) := by
  funext i
  rw [val_main_v71_apply, val_main_v67_apply, val_main_v64_apply, v63_spec, val_main_cst_15_apply,
    val_main_v66_apply, v65_spec, val_main_cst_17_apply,
    val_main_v70_apply, val_main_cst_20_apply, val_main_v69_apply, v68_spec, val_main_cst_19_apply]
  rfl

end Cert.Rbf

end
-- ==== Proof.KIHost.lean ====
/-
  What the host operations of @main compute between the calls, over the extended reals, from any contents `W` of the
  device's buffers.

  Before each call the host squares a table entrywise, sums each row from the zero word and lays the sums out as a
  column, and as a row: the squared norms of the table's rows. After a call it views the call's one-entry result as
  a scalar. At the end it divides the three scalars by the word of `2^26` and combines them as `(a + b) - 2 c`.
-/
import proofs.«150827_j20048907337956_1_alg».proof.Proof.Gen.KernelIdeal.Launch
import proofs.«150827_j20048907337956_1_alg».proof.Proof.Gen.KernelIdeal.Regions
import proofs.«150827_j20048907337956_1_alg».proof.Proof.RbfNorms
import proofs.«150827_j20048907337956_1_alg».proof.Proof.RbfSpec
import proofs.«150827_j20048907337956_1_alg».proof.Proof.RbfReference
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen

/-- A one-entry table viewed as a scalar reads its one entry. -/
theorem scalarOf_apply {α : Type} (v : S1x1.Idx → α) (h : S1x1.ShapeCasts S_) (i : S_.Idx) :
    shapeCast S_ v h i = v (ix2 (0 : Fin 1) (0 : Fin 1)) := by
  have e : ∀ k : S1x1.Idx, k = ix2 (0 : Fin 1) (0 : Fin 1) := fun k => by
    funext ax
    match ax with
    | ⟨0, _⟩ => exact Fin.ext (by have := idx2_lt0 k; show (k 0).val = 0; omega)
    | ⟨1, _⟩ => exact Fin.ext (by have := idx2_lt1 k; show (k 1).val = 0; omega)
  unfold shapeCast
  rw [e (Shape.reshapeEquiv h i)]

/-! ## Before call 0 -/

/-- The column of squared norms call 0 reads, as the operations' term. -/
theorem host0_v2_eq (W : Valuation τ sig (Elt Ideal)) :
    (StableHlo.after (hostOps0 (F := Ideal)) W (Proc.devRef .tc main_v2) : S8192x1.Idx → EReal)
      = broadcastInDim S8192x1 ![0] bcast_S8192_S8192x1_0
          (Host.reduceAdd (F := Ideal) (mulf (W (Proc.devRef .tc main_arg0)) (W (Proc.devRef .tc main_arg0)))
            (constant (F := Ideal) S_ .f32 0x00000000#32) reducesTo_S8192x128_S8192_d1 h_S_) := by
  after_results
  all_goals rfl

/-- The column of squared norms call 0 reads holds the squared norms of the first table's rows. -/
theorem host0_v2 (W : Valuation τ sig (Elt Ideal)) (i : Fin 8192) :
    StableHlo.after (hostOps0 (F := Ideal)) W (Proc.devRef .tc main_v2) (ix2 i (0 : Fin 1))
      = Cert.Rbf.sq (Cert.Rbf.rows (W (Proc.devRef .tc main_arg0))) i :=
  (congrFun (host0_v2_eq W) (ix2 i (0 : Fin 1))).trans (Cert.Rbf.sqCol_apply (W (Proc.devRef .tc main_arg0)) _ _ _ i)

/-- The row of squared norms call 0 reads, as the operations' term. -/
theorem host0_v6_eq (W : Valuation τ sig (Elt Ideal)) :
    (StableHlo.after (hostOps0 (F := Ideal)) W (Proc.devRef .tc main_v6) : S1x8192.Idx → EReal)
      = shapeCast S1x8192 (broadcastInDim S8192x1 ![0] bcast_S8192_S8192x1_0
          (Host.reduceAdd (F := Ideal) (mulf (W (Proc.devRef .tc main_arg0)) (W (Proc.devRef .tc main_arg0)))
            (constant (F := Ideal) S_ .f32 0x00000000#32) reducesTo_S8192x128_S8192_d1 h_S_)) shapeCasts_S8192x1_S1x8192 := by
  after_results
  all_goals rfl

/-- The row of squared norms call 0 reads holds the squared norms of the first table's rows. -/
theorem host0_v6 (W : Valuation τ sig (Elt Ideal)) (j : Fin 8192) :
    StableHlo.after (hostOps0 (F := Ideal)) W (Proc.devRef .tc main_v6) (ix2 (0 : Fin 1) j)
      = Cert.Rbf.sq (Cert.Rbf.rows (W (Proc.devRef .tc main_arg0))) j :=
  (congrFun (host0_v6_eq W) (ix2 (0 : Fin 1) j)).trans (Cert.Rbf.sqRow_apply (W (Proc.devRef .tc main_arg0)) _ _ _ _ j)

/-! ## Between call 0 and call 1 -/

/-- The result of call 0 viewed as a scalar is its one entry. -/
theorem host1_v8 (W : Valuation τ sig (Elt Ideal)) :
    (StableHlo.after (hostOps1 (F := Ideal)) W (Proc.devRef .tc main_v8) : S_.Idx → EReal)
      = fun _ => W (Proc.devRef .tc main_v7) (ix2 (0 : Fin 1) (0 : Fin 1)) := by
  have e : (StableHlo.after (hostOps1 (F := Ideal)) W (Proc.devRef .tc main_v8) : S_.Idx → EReal)
      = shapeCast S_ (W (Proc.devRef .tc main_v7)) shapeCasts_S1x1_S_ := by
    after_results
    all_goals rfl
  rw [e]
  funext i
  exact scalarOf_apply _ _ i

/-- The column of squared norms call 1 reads, as the operations' term. -/
theorem host1_v11_eq (W : Valuation τ sig (Elt Ideal)) :
    (StableHlo.after (hostOps1 (F := Ideal)) W (Proc.devRef .tc main_v11) : S8192x1.Idx → EReal)
      = broadcastInDim S8192x1 ![0] bcast_S8192_S8192x1_0
          (Host.reduceAdd (F := Ideal) (mulf (W (Proc.devRef .tc main_arg1)) (W (Proc.devRef .tc main_arg1)))
            (constant (F := Ideal) S_ .f32 0x00000000#32) reducesTo_S8192x128_S8192_d1 h_S_) := by
  after_results
  all_goals rfl

/-- The column of squared norms call 1 reads holds the squared norms of the rows of the second table. -/
theorem host1_v11 (W : Valuation τ sig (Elt Ideal)) (i : Fin 8192) :
    StableHlo.after (hostOps1 (F := Ideal)) W (Proc.devRef .tc main_v11) (ix2 i (0 : Fin 1))
      = Cert.Rbf.sq (Cert.Rbf.rows (W (Proc.devRef .tc main_arg1))) i :=
  (congrFun (host1_v11_eq W) (ix2 i (0 : Fin 1))).trans
    (Cert.Rbf.sqCol_apply (W (Proc.devRef .tc main_arg1)) _ _ _ i)

/-- The row of squared norms call 1 reads, as the operations' term. -/
theorem host1_v15_eq (W : Valuation τ sig (Elt Ideal)) :
    (StableHlo.after (hostOps1 (F := Ideal)) W (Proc.devRef .tc main_v15) : S1x8192.Idx → EReal)
      = shapeCast S1x8192 (broadcastInDim S8192x1 ![0] bcast_S8192_S8192x1_0
          (Host.reduceAdd (F := Ideal) (mulf (W (Proc.devRef .tc main_arg1)) (W (Proc.devRef .tc main_arg1)))
            (constant (F := Ideal) S_ .f32 0x00000000#32) reducesTo_S8192x128_S8192_d1 h_S_)) shapeCasts_S8192x1_S1x8192 := by
  after_results
  all_goals rfl

/-- The row of squared norms call 1 reads holds the squared norms of the rows of the second table. -/
theorem host1_v15 (W : Valuation τ sig (Elt Ideal)) (j : Fin 8192) :
    StableHlo.after (hostOps1 (F := Ideal)) W (Proc.devRef .tc main_v15) (ix2 (0 : Fin 1) j)
      = Cert.Rbf.sq (Cert.Rbf.rows (W (Proc.devRef .tc main_arg1))) j :=
  (congrFun (host1_v15_eq W) (ix2 (0 : Fin 1) j)).trans
    (Cert.Rbf.sqRow_apply (W (Proc.devRef .tc main_arg1)) _ _ _ _ j)

/-! ## Between call 1 and call 2 -/

/-- The result of call 1 viewed as a scalar is its one entry. -/
theorem host2_v17 (W : Valuation τ sig (Elt Ideal)) :
    (StableHlo.after (hostOps2 (F := Ideal)) W (Proc.devRef .tc main_v17) : S_.Idx → EReal)
      = fun _ => W (Proc.devRef .tc main_v16) (ix2 (0 : Fin 1) (0 : Fin 1)) := by
  have e : (StableHlo.after (hostOps2 (F := Ideal)) W (Proc.devRef .tc main_v17) : S_.Idx → EReal)
      = shapeCast S_ (W (Proc.devRef .tc main_v16)) shapeCasts_S1x1_S_ := by
    after_results
    all_goals rfl
  rw [e]
  funext i
  exact scalarOf_apply _ _ i

/-- The column of squared norms call 2 reads, as the operations' term. -/
theorem host2_v20_eq (W : Valuation τ sig (Elt Ideal)) :
    (StableHlo.after (hostOps2 (F := Ideal)) W (Proc.devRef .tc main_v20) : S8192x1.Idx → EReal)
      = broadcastInDim S8192x1 ![0] bcast_S8192_S8192x1_0
          (Host.reduceAdd (F := Ideal) (mulf (W (Proc.devRef .tc main_arg0)) (W (Proc.devRef .tc main_arg0)))
            (constant (F := Ideal) S_ .f32 0x00000000#32) reducesTo_S8192x128_S8192_d1 h_S_) := by
  after_results
  all_goals rfl

/-- The column of squared norms call 2 reads holds the squared norms of the rows of the first table. -/
theorem host2_v20 (W : Valuation τ sig (Elt Ideal)) (i : Fin 8192) :
    StableHlo.after (hostOps2 (F := Ideal)) W (Proc.devRef .tc main_v20) (ix2 i (0 : Fin 1))
      = Cert.Rbf.sq (Cert.Rbf.rows (W (Proc.devRef .tc main_arg0))) i :=
  (congrFun (host2_v20_eq W) (ix2 i (0 : Fin 1))).trans
    (Cert.Rbf.sqCol_apply (W (Proc.devRef .tc main_arg0)) _ _ _ i)

/-- The row of squared norms call 2 reads, as the operations' term. -/
theorem host2_v24_eq (W : Valuation τ sig (Elt Ideal)) :
    (StableHlo.after (hostOps2 (F := Ideal)) W (Proc.devRef .tc main_v24) : S1x8192.Idx → EReal)
      = shapeCast S1x8192 (broadcastInDim S8192x1 ![0] bcast_S8192_S8192x1_0
          (Host.reduceAdd (F := Ideal) (mulf (W (Proc.devRef .tc main_arg1)) (W (Proc.devRef .tc main_arg1)))
            (constant (F := Ideal) S_ .f32 0x00000000#32) reducesTo_S8192x128_S8192_d1 h_S_)) shapeCasts_S8192x1_S1x8192 := by
  after_results
  all_goals rfl

/-- The row of squared norms call 2 reads holds the squared norms of the rows of the second table. -/
theorem host2_v24 (W : Valuation τ sig (Elt Ideal)) (j : Fin 8192) :
    StableHlo.after (hostOps2 (F := Ideal)) W (Proc.devRef .tc main_v24) (ix2 (0 : Fin 1) j)
      = Cert.Rbf.sq (Cert.Rbf.rows (W (Proc.devRef .tc main_arg1))) j :=
  (congrFun (host2_v24_eq W) (ix2 (0 : Fin 1) j)).trans
    (Cert.Rbf.sqRow_apply (W (Proc.devRef .tc main_arg1)) _ _ _ _ j)

/-! ## After call 2 -/

/-- The final scalar: the three results, each divided by the word of `2^26`, combined as `(a + b) - 2 c`. -/
theorem host3_v32 (W : Valuation τ sig (Elt Ideal)) :
    (StableHlo.after (hostOps3 (F := Ideal)) W (Proc.devRef .tc main_v32) : S_.Idx → EReal)
      = fun _ => Cert.Rbf.mmd (W (Proc.devRef .tc main_v8) ix0) (W (Proc.devRef .tc main_v17) ix0)
          (W (Proc.devRef .tc main_v25) (ix2 (0 : Fin 1) (0 : Fin 1))) := by
  have e : (StableHlo.after (hostOps3 (F := Ideal)) W (Proc.devRef .tc main_v32) : S_.Idx → EReal)
      = subf (addf (Host.divf (W (Proc.devRef .tc main_v8)) (constant (F := Ideal) S_ .f32 0x4C800000#32))
            (Host.divf (W (Proc.devRef .tc main_v17)) (constant (F := Ideal) S_ .f32 0x4C800000#32)))
          (mulf (constant (F := Ideal) S_ .f32 0x40000000#32)
            (Host.divf (shapeCast S_ (W (Proc.devRef .tc main_v25)) shapeCasts_S1x1_S_)
              (constant (F := Ideal) S_ .f32 0x4C800000#32))) := by
    after_results
    all_goals rfl
  rw [e]
  funext i
  obtain rfl : i = ix0 := eq_ix0 i
  exact congrArg
    (fun z => (Ideal.div (W (Proc.devRef .tc main_v8) ix0) Cert.Rbf.wN + Ideal.div (W (Proc.devRef .tc main_v17) ix0) Cert.Rbf.wN)
      - Cert.Rbf.w2 * Ideal.div z Cert.Rbf.wN)
    (scalarOf_apply (W (Proc.devRef .tc main_v25)) shapeCasts_S1x1_S_ ix0)

/-! ## What the operations leave alone -/

/-- The operations before call 0 leave every buffer they do not write as it was. -/
theorem host0_keeps (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 W hostOps0_writes h

/-- The operations before call 1 leave every buffer they do not write as it was. -/
theorem host1_keeps (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 W hostOps1_writes h

/-- The operations before call 2 leave every buffer they do not write as it was. -/
theorem host2_keeps (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 W hostOps2_writes h

/-- The closing operations leave every buffer they do not write as it was. -/
theorem host3_keeps (W : Valuation τ sig (Elt Ideal)) (r : Ref sig .tc) (h : r ∉ hostOps3_W) :
    StableHlo.after (hostOps3 (F := Ideal)) W (Proc.devRef .tc r) = W (Proc.devRef .tc r) :=
  StableHlo.after_of_writes_sub hostOps3 W hostOps3_writes h

end Cert.KernelIdeal.Hand

end
-- ==== Proof.KIPieces.lean ====
/-
  What each run of the kernel body leaves in the one-element accumulator block, as a value: at a later grid point the
  payload of its one store, applied to the four input blocks and to what the block held; at the first grid point the
  same payload applied to the zero block its first store wrote.  One pair of statements per pallas_call.
-/
import proofs.«150827_j20048907337956_1_alg».proof.Proof.KIBody0
import proofs.«150827_j20048907337956_1_alg».proof.Proof.KIBody1
import proofs.«150827_j20048907337956_1_alg».proof.Proof.KIBody2
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offset of a load or store of a whole block is zero on both axes. -/
theorem hz11 : (![0, 0] : Fin 2 → Nat) = fun _ => 0 := funext fun a => by fin_cases a <;> rfl

/-- Call 0, a later point: the one covering store's payload, its loads reading the whole blocks. -/
theorem out0_B_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S1024x128 .f32) (x1 : Vec F S1024x128 .f32) (x2 : Vec F S1024x1 .f32) (x3 : Vec F S1x1024 .f32) (xo4 : Vec F S1x1 .f32) :
    out0_B c i arg2 harg2 arg3 harg3 arg4 harg4 arg5 harg5 arg6 harg6 hc0 x0 x1 x2 x3 xo4 = k0_pay2 x0 x1 x2 x3 xo4 := by
  unfold out0_B
  rw [View.read_writes_eq_canon _ _ _ (cover0_B c i arg2 harg2 arg3 harg3 arg4 harg4 arg5 harg5 arg6 harg6 hc0 x0 x1 x2 x3 xo4)]
  unfold kernelRun0_B
  dsimp only
  rw [View.canon_unit_zero (S := S1x1) hz11]
  simp only [View.readAt_eq_ld, harg2.read_unread, harg3.read_unread, harg4.read_unread, harg5.read_unread, harg6.read_unread,
    View.ld_unit_zero (S := S1024x128) hz11, View.ld_unit_zero (S := S1024x1) hz11, View.ld_unit_zero (S := S1x1024) hz11,
    View.ld_unit_zero (S := S1x1) hz11]

/-- Call 0, the first point: the accumulator block is overwritten with the zero block, which the second store's
    payload reads back as its accumulator. -/
theorem out0_A_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S1024x128 .f32) (x1 : Vec F S1024x128 .f32) (x2 : Vec F S1024x1 .f32) (x3 : Vec F S1x1024 .f32) :
    out0_A c i arg2 harg2 arg3 harg3 arg4 harg4 arg5 harg5 arg6 harg6 hc0 x0 x1 x2 x3 = k0_pay2 x0 x1 x2 x3 (k0_pay1 (F := F)) := by
  unfold out0_A
  rw [View.read_writes_eq_canon _ _ _ (cover0_A c i arg2 harg2 arg3 harg3 arg4 harg4 arg5 harg5 arg6 harg6 hc0 x0 x1 x2 x3)]
  unfold kernelRun0_A
  dsimp only
  sl_unfold_words
  rw [View.canon_cons_unit_zero (S := S1x1) hz11, View.readCov_unit_zero (S := S1x1) _ hz11]
  simp only [View.readAt_eq_ld, harg2.read_unread, harg3.read_unread, harg4.read_unread, harg5.read_unread,
    View.ld_unit_zero (S := S1024x128) hz11, View.ld_unit_zero (S := S1024x1) hz11, View.ld_unit_zero (S := S1x1024) hz11]

/-- Call 1, a later point: the one covering store's payload, its loads reading the whole blocks. -/
theorem out1_B_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S1024x128 .f32) (x1 : Vec F S1024x128 .f32) (x2 : Vec F S1024x1 .f32) (x3 : Vec F S1x1024 .f32) (xo4 : Vec F S1x1 .f32) :
    out1_B c i arg2 harg2 arg3 harg3 arg4 harg4 arg5 harg5 arg6 harg6 hc0 x0 x1 x2 x3 xo4 = k1_pay2 x0 x1 x2 x3 xo4 := by
  unfold out1_B
  rw [View.read_writes_eq_canon _ _ _ (cover1_B c i arg2 harg2 arg3 harg3 arg4 harg4 arg5 harg5 arg6 harg6 hc0 x0 x1 x2 x3 xo4)]
  unfold kernelRun1_B
  dsimp only
  rw [View.canon_unit_zero (S := S1x1) hz11]
  simp only [View.readAt_eq_ld, harg2.read_unread, harg3.read_unread, harg4.read_unread, harg5.read_unread, harg6.read_unread,
    View.ld_unit_zero (S := S1024x128) hz11, View.ld_unit_zero (S := S1024x1) hz11, View.ld_unit_zero (S := S1x1024) hz11,
    View.ld_unit_zero (S := S1x1) hz11]

/-- Call 1, the first point: the accumulator block is overwritten with the zero block, which the second store's
    payload reads back as its accumulator. -/
theorem out1_A_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S1024x128 .f32) (x1 : Vec F S1024x128 .f32) (x2 : Vec F S1024x1 .f32) (x3 : Vec F S1x1024 .f32) :
    out1_A c i arg2 harg2 arg3 harg3 arg4 harg4 arg5 harg5 arg6 harg6 hc0 x0 x1 x2 x3 = k1_pay2 x0 x1 x2 x3 (k1_pay1 (F := F)) := by
  unfold out1_A
  rw [View.read_writes_eq_canon _ _ _ (cover1_A c i arg2 harg2 arg3 harg3 arg4 harg4 arg5 harg5 arg6 harg6 hc0 x0 x1 x2 x3)]
  unfold kernelRun1_A
  dsimp only
  sl_unfold_words
  rw [View.canon_cons_unit_zero (S := S1x1) hz11, View.readCov_unit_zero (S := S1x1) _ hz11]
  simp only [View.readAt_eq_ld, harg2.read_unread, harg3.read_unread, harg4.read_unread, harg5.read_unread,
    View.ld_unit_zero (S := S1024x128) hz11, View.ld_unit_zero (S := S1024x1) hz11, View.ld_unit_zero (S := S1x1024) hz11]

/-- Call 2, a later point: the one covering store's payload, its loads reading the whole blocks. -/
theorem out2_B_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S1024x128 .f32) (x1 : Vec F S1024x128 .f32) (x2 : Vec F S1024x1 .f32) (x3 : Vec F S1x1024 .f32) (xo4 : Vec F S1x1 .f32) :
    out2_B c i arg2 harg2 arg3 harg3 arg4 harg4 arg5 harg5 arg6 harg6 hc0 x0 x1 x2 x3 xo4 = k2_pay2 x0 x1 x2 x3 xo4 := by
  unfold out2_B
  rw [View.read_writes_eq_canon _ _ _ (cover2_B c i arg2 harg2 arg3 harg3 arg4 harg4 arg5 harg5 arg6 harg6 hc0 x0 x1 x2 x3 xo4)]
  unfold kernelRun2_B
  dsimp only
  rw [View.canon_unit_zero (S := S1x1) hz11]
  simp only [View.readAt_eq_ld, harg2.read_unread, harg3.read_unread, harg4.read_unread, harg5.read_unread, harg6.read_unread,
    View.ld_unit_zero (S := S1024x128) hz11, View.ld_unit_zero (S := S1024x1) hz11, View.ld_unit_zero (S := S1x1024) hz11,
    View.ld_unit_zero (S := S1x1) hz11]

/-- Call 2, the first point: the accumulator block is overwritten with the zero block, which the second store's
    payload reads back as its accumulator. -/
theorem out2_A_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S1024x128 .f32) (x1 : Vec F S1024x128 .f32) (x2 : Vec F S1024x1 .f32) (x3 : Vec F S1x1024 .f32) :
    out2_A c i arg2 harg2 arg3 harg3 arg4 harg4 arg5 harg5 arg6 harg6 hc0 x0 x1 x2 x3 = k2_pay2 x0 x1 x2 x3 (k2_pay1 (F := F)) := by
  unfold out2_A
  rw [View.read_writes_eq_canon _ _ _ (cover2_A c i arg2 harg2 arg3 harg3 arg4 harg4 arg5 harg5 arg6 harg6 hc0 x0 x1 x2 x3)]
  unfold kernelRun2_A
  dsimp only
  sl_unfold_words
  rw [View.canon_cons_unit_zero (S := S1x1) hz11, View.readCov_unit_zero (S := S1x1) _ hz11]
  simp only [View.readAt_eq_ld, harg2.read_unread, harg3.read_unread, harg4.read_unread, harg5.read_unread,
    View.ld_unit_zero (S := S1024x128) hz11, View.ld_unit_zero (S := S1024x1) hz11, View.ld_unit_zero (S := S1x1024) hz11]

end Cert.KernelIdeal.Hand

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.RbfPayload.lean ====
/-
  The kernel body's arithmetic, read at the extended reals.

  One call of the kernel body takes two blocks of `1024` rows, their squared norms as a column and as a row, and the
  one-entry accumulator. It forms the `1024 × 1024` table of inner products (a matrix product contracting the last
  axis of both blocks), from it the table of pair values `exp((0 - max(s + t - 2 g, 0)) * 0.5)`, sums each row, sums
  the row sums, and adds the total to the accumulator. Read at the one index of the result this is the accumulator
  plus the block total of the specification. The first store of a call writes the zero word.
-/
import proofs.«150827_j20048907337956_1_alg».proof.Proof.Gen.KernelIdeal.Skeleton
import proofs.«150827_j20048907337956_1_alg».proof.Proof.RbfSpec
import proofs.«150827_j20048907337956_1_alg».proof.Proof.LibContractLast
import proofs.«150827_j20048907337956_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf

open Idealize.ShloMosaic Idealize.ShloMosaic.ValueIdx Cert.KernelIdeal Cert.KernelIdeal.Gen

/-! ## The non-pointwise operations of the body at an index -/

/-- The table of inner products: entry `(r, c)` of the matrix product of the two blocks, each contracted along its
    last axis, accumulated into zero, is the inner product of row `r` of the first and row `c` of the second. -/
theorem innerTable_apply (x1 x2 : FVec Ideal S1024x128 .f32) (r c : Fin 1024) :
    matmul (F := Ideal) dot_S1024x128_S1024x128_S1024x1024_1_1_0_0_n_n (some .fp32) x1 x2
        (constant (F := Ideal) S1024x1024 .f32 0x00000000#32) (ix2 r c)
      = gram (fun r d => x1 (ix2 r d)) (fun c d => x2 (ix2 c d)) r c :=
  Cert.LibContractLast.matmulLast_zero_apply 1024 128 1024
    Cert.KernelIdeal.Gen.dot_S1024x128_S1024x128_S1024x1024_1_1_0_0_n_n_wf (some .fp32) x1 x2 r c

/-- The column of squared norms repeated along the rows' second axis reads, at `(r, c)`, its entry of row `r`. -/
theorem colBroadcast_apply (n1 : FVec Ideal S1024x1 .f32) (h : S1024x1.ShapeCasts S1024x1)
    (hb : S1024x1.Broadcasts S1024x1024) (r c : Fin 1024) :
    broadcastTo S1024x1024 (shapeCast S1024x1 n1 h) hb (ix2 r c) = n1 (ix2 r (0 : Fin 1)) :=
  (Cert.Attn.Layout.broadcastTo_a1_ab_apply (shapeCast S1024x1 n1 h) hb r c).trans
    (congrFun (shapeCast_self n1 h) (ix2 r (0 : Fin 1)))

/-- The row of squared norms repeated along the first axis reads, at `(r, c)`, its entry of column `c`. -/
theorem rowBroadcast_apply (n2 : FVec Ideal S1x1024 .f32) (h : S1x1024.ShapeCasts S1x1024)
    (hb : S1x1024.Broadcasts S1024x1024) (r c : Fin 1024) :
    broadcastTo S1024x1024 (shapeCast S1x1024 n2 h) hb (ix2 r c) = n2 (ix2 (0 : Fin 1) c) :=
  (broadcastTo_1b_ab_apply (shapeCast S1x1024 n2 h) hb r c).trans
    (congrFun (shapeCast_self n2 h) (ix2 (0 : Fin 1) c))

/-- The sum along the second axis of a `1024 × 1024` table, from zero, reads at `r` the sum of row `r`. -/
theorem rowSum_apply (v : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ c : Fin 1024, v (ix2 r c) := by
  refine (Ideal.multiReduction_add_single v 0x00000000#32 h hφ hacc (ix1 r)).trans ?_
  refine Finset.sum_congr rfl fun c _ => congrArg v ?_
  funext ax
  match ax with
  | ⟨0, _⟩ => rfl
  | ⟨1, _⟩ => rfl

/-- The sum along the first axis of a `1024 × 1` column, from zero, reads at its one index the sum of the column. -/
theorem colSum_apply (w : FVec Ideal S1024x1 .f32) (h : S1024x1.Reduces [0] S1) (hφ : FKind.Formats .f32)
    (hacc : (0x00000000#32 : BitVec 32) = FKind.add.neutral .f32 hφ) (u : Fin 1) :
    multiReduction (F := Ideal) .add [0] S1 w 0x00000000#32 h hφ hacc (ix1 u) = ∑ r : Fin 1024, w (ix2 r (0 : Fin 1)) := by
  refine (Ideal.multiReduction_add_single w 0x00000000#32 h hφ hacc (ix1 u)).trans ?_
  refine Finset.sum_congr rfl fun r _ => congrArg w ?_
  funext ax
  match ax with
  | ⟨0, _⟩ => rfl
  | ⟨1, _⟩ => exact Fin.ext (by have := u.isLt; show u.val = 0; omega)

/-- The `1 × 1` shape has one index. -/
theorem unitIdx_eq (j : S1x1.Idx) : j = ix2 (0 : Fin 1) (0 : Fin 1) := by
  funext ax
  match ax with
  | ⟨0, _⟩ => exact Fin.ext (by have := idx2_lt0 j; show (j 0).val = 0; omega)
  | ⟨1, _⟩ => exact Fin.ext (by have := idx2_lt1 j; show (j 1).val = 0; omega)

/-- The pair value is a function of its three arguments. -/
theorem kElt_congr {s t g s' t' g' : EReal} (hs : s = s') (ht : t = t') (hg : g = g') :
    kElt s t g = kElt s' t' g' := by rw [hs, ht, hg]

/-! ## The two stores of each call -/

/-- The accumulating store of call 0 of the body: the accumulator plus the block total. -/
theorem pay2_eq0 (x1 x2 : Vec Ideal S1024x128 .f32) (n1 : Vec Ideal S1024x1 .f32) (n2 : Vec Ideal S1x1024 .f32)
    (acc : Vec Ideal S1x1 .f32) :
    k0_pay2 (F := Ideal) x1 x2 n1 n2 acc
      = fun _ => acc (ix2 (0 : Fin 1) (0 : Fin 1))
          + blockTotal (fun r d => x1 (ix2 r d)) (fun c d => x2 (ix2 c d)) (fun r => n1 (ix2 r (0 : Fin 1)))
              (fun c => n2 (ix2 (0 : Fin 1) c)) := by
  funext j
  obtain rfl : j = ix2 (0 : Fin 1) (0 : Fin 1) := unitIdx_eq j
  unfold k0_pay2
  refine (addf_apply _ _ _).trans ?_
  refine congrArg₂ (· + ·) (congrFun (shapeCast_self acc _) _) ?_
  refine (Cert.Attn.Layout.shapeCast_a_a1_apply _ _ (0 : Fin 1) (0 : Fin 1)).trans ?_
  refine (colSum_apply _ _ _ _ (0 : Fin 1)).trans ?_
  unfold blockTotal
  refine Finset.sum_congr rfl fun r _ => ?_
  refine (Cert.Attn.Layout.shapeCast_a_a1_apply _ _ r (0 : Fin 1)).trans ?_
  refine (rowSum_apply _ _ _ _ r).trans ?_
  refine Finset.sum_congr rfl fun c _ => ?_
  exact kElt_congr (colBroadcast_apply n1 _ _ r c) (rowBroadcast_apply n2 _ _ r c) (innerTable_apply x1 x2 r c)

/-- The initialising store of call 0 of the body writes zero. -/
theorem pay1_eq0 : k0_pay1 (F := Ideal) = fun _ => 0 := by
  funext j
  exact Ideal.ofBits_zero_f32

/-- The accumulating store of call 1 of the body: the accumulator plus the block total. -/
theorem pay2_eq1 (x1 x2 : Vec Ideal S1024x128 .f32) (n1 : Vec Ideal S1024x1 .f32) (n2 : Vec Ideal S1x1024 .f32)
    (acc : Vec Ideal S1x1 .f32) :
    k1_pay2 (F := Ideal) x1 x2 n1 n2 acc
      = fun _ => acc (ix2 (0 : Fin 1) (0 : Fin 1))
          + blockTotal (fun r d => x1 (ix2 r d)) (fun c d => x2 (ix2 c d)) (fun r => n1 (ix2 r (0 : Fin 1)))
              (fun c => n2 (ix2 (0 : Fin 1) c)) := by
  funext j
  obtain rfl : j = ix2 (0 : Fin 1) (0 : Fin 1) := unitIdx_eq j
  unfold k1_pay2
  refine (addf_apply _ _ _).trans ?_
  refine congrArg₂ (· + ·) (congrFun (shapeCast_self acc _) _) ?_
  refine (Cert.Attn.Layout.shapeCast_a_a1_apply _ _ (0 : Fin 1) (0 : Fin 1)).trans ?_
  refine (colSum_apply _ _ _ _ (0 : Fin 1)).trans ?_
  unfold blockTotal
  refine Finset.sum_congr rfl fun r _ => ?_
  refine (Cert.Attn.Layout.shapeCast_a_a1_apply _ _ r (0 : Fin 1)).trans ?_
  refine (rowSum_apply _ _ _ _ r).trans ?_
  refine Finset.sum_congr rfl fun c _ => ?_
  exact kElt_congr (colBroadcast_apply n1 _ _ r c) (rowBroadcast_apply n2 _ _ r c) (innerTable_apply x1 x2 r c)

/-- The initialising store of call 1 of the body writes zero. -/
theorem pay1_eq1 : k1_pay1 (F := Ideal) = fun _ => 0 := by
  funext j
  exact Ideal.ofBits_zero_f32

/-- The accumulating store of call 2 of the body: the accumulator plus the block total. -/
theorem pay2_eq2 (x1 x2 : Vec Ideal S1024x128 .f32) (n1 : Vec Ideal S1024x1 .f32) (n2 : Vec Ideal S1x1024 .f32)
    (acc : Vec Ideal S1x1 .f32) :
    k2_pay2 (F := Ideal) x1 x2 n1 n2 acc
      = fun _ => acc (ix2 (0 : Fin 1) (0 : Fin 1))
          + blockTotal (fun r d => x1 (ix2 r d)) (fun c d => x2 (ix2 c d)) (fun r => n1 (ix2 r (0 : Fin 1)))
              (fun c => n2 (ix2 (0 : Fin 1) c)) := by
  funext j
  obtain rfl : j = ix2 (0 : Fin 1) (0 : Fin 1) := unitIdx_eq j
  unfold k2_pay2
  refine (addf_apply _ _ _).trans ?_
  refine congrArg₂ (· + ·) (congrFun (shapeCast_self acc _) _) ?_
  refine (Cert.Attn.Layout.shapeCast_a_a1_apply _ _ (0 : Fin 1) (0 : Fin 1)).trans ?_
  refine (colSum_apply _ _ _ _ (0 : Fin 1)).trans ?_
  unfold blockTotal
  refine Finset.sum_congr rfl fun r _ => ?_
  refine (Cert.Attn.Layout.shapeCast_a_a1_apply _ _ r (0 : Fin 1)).trans ?_
  refine (rowSum_apply _ _ _ _ r).trans ?_
  refine Finset.sum_congr rfl fun c _ => ?_
  exact kElt_congr (colBroadcast_apply n1 _ _ r c) (rowBroadcast_apply n2 _ _ r c) (innerTable_apply x1 x2 r c)

/-- The initialising store of call 2 of the body writes zero. -/
theorem pay1_eq2 : k2_pay1 (F := Ideal) = fun _ => 0 := by
  funext j
  exact Ideal.ofBits_zero_f32

end Cert.Rbf

end
-- ==== Proof.KIAccum.lean ====
/-
  The accumulator across the grid, over the extended reals: after grid point `n` its one element is the sum of the
  block totals of the grid points `0 … n`, so after the last point the sum of all of them.  The first point's zero is
  absorbed; each later point adds its block total to what the point before left.  One statement per pallas_call.
-/
import proofs.«150827_j20048907337956_1_alg».proof.Proof.KIPieces
import proofs.«150827_j20048907337956_1_alg».proof.Proof.RbfSpec
import proofs.«150827_j20048907337956_1_alg».proof.Proof.RbfPayload
import Idealize.ShloMosaic.Lib.ValueIdx
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-- The block total of four blocks: `1024` rows each of two tables, a column of squared norms and a row of squared norms. -/
def blockOf (x1 x2 : Vec Ideal S1024x128 .f32) (n1 : Vec Ideal S1024x1 .f32) (n2 : Vec Ideal S1x1024 .f32) : EReal :=
  Cert.Rbf.blockTotal (fun r d => x1 (ix2 r d)) (fun c d => x2 (ix2 c d)) (fun r => n1 (ix2 r (0 : Fin 1)))
    (fun c => n2 (ix2 (0 : Fin 1) c))

/-! ## Pallas_call 0 -/

/-- The payload of call 0's store adds the block total of its four input blocks to the accumulator. -/
theorem pay2_blockOf0 (x1 x2 : Vec Ideal S1024x128 .f32) (n1 : Vec Ideal S1024x1 .f32) (n2 : Vec Ideal S1x1024 .f32)
    (acc : Vec Ideal S1x1 .f32) :
    k0_pay2 (F := Ideal) x1 x2 n1 n2 acc = fun _ => acc (ix2 (0 : Fin 1) (0 : Fin 1)) + blockOf x1 x2 n1 n2 :=
  Cert.Rbf.pay2_eq0 x1 x2 n1 n2 acc

section
variable (V : (c : Dev nD) → (b : Ref sig .tc) → Buf (Elt Ideal) ((c : Thread nD τ).loc b))

/-- The block total of call 0 at grid point `t`: of the four input windows' blocks there. -/
def blockAt0 (c : Dev nD) (t : Fin cfg0.N) : EReal :=
  blockOf (iblk0 V c 0 t) (iblk0 V c 1 t) (iblk0 V c 2 t) (iblk0 V c 3 t)

/-- After grid point `n` the accumulator block holds the sum of the block totals of the points up to `n`: the first
    point leaves `0 +` its total, each later one adds its own. -/
theorem outsAt0_eq (c : Dev nD) : ∀ (n : ℕ) (hn : n < cfg0.N),
    outsAt0 (F := Ideal) V c n hn
      = fun _ => ∑ t ∈ Finset.range (n + 1), if h : t < cfg0.N then blockAt0 V c ⟨t, h⟩ else 0
  | 0, hn => by
    rw [outsAt0_A V c ⟨0, hn⟩ rfl, out0_A_eq, pay2_blockOf0, Cert.Rbf.pay1_eq0]
    funext _
    rw [Finset.sum_range_one, dif_pos hn]
    exact zero_add _
  | n + 1, hn => by
    rw [outsAt0_B V c ⟨n + 1, hn⟩ (Nat.succ_ne_zero n), out0_B_eq, pay2_blockOf0]
    funext _
    rw [Finset.sum_range_succ, dif_pos hn]
    show outsAt0 V c n _ _ + _ = _
    rw [outsAt0_eq c n]
    rfl

/-- At the last grid point the accumulator block holds the sum of all the block totals. -/
theorem outsAt0_last (c : Dev nD) (t : Fin cfg0.N) (ht : t.val + 1 = cfg0.N) :
    outsAt0 (F := Ideal) V c t.val t.isLt = fun _ => ∑ s : Fin cfg0.N, blockAt0 V c s := by
  rw [outsAt0_eq V c t.val t.isLt, ht, Finset.sum_range]
  funext _
  exact Finset.sum_congr rfl fun s _ => dif_pos s.isLt

end

/-! ## Pallas_call 1 -/

/-- The payload of call 1's store adds the block total of its four input blocks to the accumulator. -/
theorem pay2_blockOf1 (x1 x2 : Vec Ideal S1024x128 .f32) (n1 : Vec Ideal S1024x1 .f32) (n2 : Vec Ideal S1x1024 .f32)
    (acc : Vec Ideal S1x1 .f32) :
    k1_pay2 (F := Ideal) x1 x2 n1 n2 acc = fun _ => acc (ix2 (0 : Fin 1) (0 : Fin 1)) + blockOf x1 x2 n1 n2 :=
  Cert.Rbf.pay2_eq1 x1 x2 n1 n2 acc

section
variable (V : (c : Dev nD) → (b : Ref sig .tc) → Buf (Elt Ideal) ((c : Thread nD τ).loc b))

/-- The block total of call 1 at grid point `t`: of the four input windows' blocks there. -/
def blockAt1 (c : Dev nD) (t : Fin cfg1.N) : EReal :=
  blockOf (iblk1 V c 0 t) (iblk1 V c 1 t) (iblk1 V c 2 t) (iblk1 V c 3 t)

/-- After grid point `n` the accumulator block holds the sum of the block totals of the points up to `n`: the first
    point leaves `0 +` its total, each later one adds its own. -/
theorem outsAt1_eq (c : Dev nD) : ∀ (n : ℕ) (hn : n < cfg1.N),
    outsAt1 (F := Ideal) V c n hn
      = fun _ => ∑ t ∈ Finset.range (n + 1), if h : t < cfg1.N then blockAt1 V c ⟨t, h⟩ else 0
  | 0, hn => by
    rw [outsAt1_A V c ⟨0, hn⟩ rfl, out1_A_eq, pay2_blockOf1, Cert.Rbf.pay1_eq1]
    funext _
    rw [Finset.sum_range_one, dif_pos hn]
    exact zero_add _
  | n + 1, hn => by
    rw [outsAt1_B V c ⟨n + 1, hn⟩ (Nat.succ_ne_zero n), out1_B_eq, pay2_blockOf1]
    funext _
    rw [Finset.sum_range_succ, dif_pos hn]
    show outsAt1 V c n _ _ + _ = _
    rw [outsAt1_eq c n]
    rfl

/-- At the last grid point the accumulator block holds the sum of all the block totals. -/
theorem outsAt1_last (c : Dev nD) (t : Fin cfg1.N) (ht : t.val + 1 = cfg1.N) :
    outsAt1 (F := Ideal) V c t.val t.isLt = fun _ => ∑ s : Fin cfg1.N, blockAt1 V c s := by
  rw [outsAt1_eq V c t.val t.isLt, ht, Finset.sum_range]
  funext _
  exact Finset.sum_congr rfl fun s _ => dif_pos s.isLt

end

/-! ## Pallas_call 2 -/

/-- The payload of call 2's store adds the block total of its four input blocks to the accumulator. -/
theorem pay2_blockOf2 (x1 x2 : Vec Ideal S1024x128 .f32) (n1 : Vec Ideal S1024x1 .f32) (n2 : Vec Ideal S1x1024 .f32)
    (acc : Vec Ideal S1x1 .f32) :
    k2_pay2 (F := Ideal) x1 x2 n1 n2 acc = fun _ => acc (ix2 (0 : Fin 1) (0 : Fin 1)) + blockOf x1 x2 n1 n2 :=
  Cert.Rbf.pay2_eq2 x1 x2 n1 n2 acc

section
variable (V : (c : Dev nD) → (b : Ref sig .tc) → Buf (Elt Ideal) ((c : Thread nD τ).loc b))

/-- The block total of call 2 at grid point `t`: of the four input windows' blocks there. -/
def blockAt2 (c : Dev nD) (t : Fin cfg2.N) : EReal :=
  blockOf (iblk2 V c 0 t) (iblk2 V c 1 t) (iblk2 V c 2 t) (iblk2 V c 3 t)

/-- After grid point `n` the accumulator block holds the sum of the block totals of the points up to `n`: the first
    point leaves `0 +` its total, each later one adds its own. -/
theorem outsAt2_eq (c : Dev nD) : ∀ (n : ℕ) (hn : n < cfg2.N),
    outsAt2 (F := Ideal) V c n hn
      = fun _ => ∑ t ∈ Finset.range (n + 1), if h : t < cfg2.N then blockAt2 V c ⟨t, h⟩ else 0
  | 0, hn => by
    rw [outsAt2_A V c ⟨0, hn⟩ rfl, out2_A_eq, pay2_blockOf2, Cert.Rbf.pay1_eq2]
    funext _
    rw [Finset.sum_range_one, dif_pos hn]
    exact zero_add _
  | n + 1, hn => by
    rw [outsAt2_B V c ⟨n + 1, hn⟩ (Nat.succ_ne_zero n), out2_B_eq, pay2_blockOf2]
    funext _
    rw [Finset.sum_range_succ, dif_pos hn]
    show outsAt2 V c n _ _ + _ = _
    rw [outsAt2_eq c n]
    rfl

/-- At the last grid point the accumulator block holds the sum of all the block totals. -/
theorem outsAt2_last (c : Dev nD) (t : Fin cfg2.N) (ht : t.val + 1 = cfg2.N) :
    outsAt2 (F := Ideal) V c t.val t.isLt = fun _ => ∑ s : Fin cfg2.N, blockAt2 V c s := by
  rw [outsAt2_eq V c t.val t.isLt, ht, Finset.sum_range]
  funext _
  exact Finset.sum_congr rfl fun s _ => dif_pos s.isLt

end

end Cert.KernelIdeal.Hand

end
-- ==== Proof.KISum.lean ====
/-
  The grid's 64 points are the 8 × 8 pairs of blocks `(s / 8, s % 8)`; the block total at a point is the total of that
  pair of blocks of the two tables; so the block totals of all points add up to the pair sum over all pairs of rows,
  and that is what the accumulator holds after the last point.  One statement per pallas_call.
-/
import proofs.«150827_j20048907337956_1_alg».proof.Proof.KIAccum
import proofs.«150827_j20048907337956_1_alg».proof.Proof.KIBlocks
import proofs.«150827_j20048907337956_1_alg».proof.Proof.RbfAlgebra
import proofs.«150827_j20048907337956_1_alg».proof.Proof.RbfReference
import Idealize.ShloMosaic.Lib.ValueIdx
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-- The grid points as pairs (row block, column block). -/
def gridEquiv : Fin 8 × Fin 8 ≃ Fin 64 where
  toFun p := ⟨8 * p.1.val + p.2.val, by omega⟩
  invFun s := (rowBlk s.val s.isLt, colBlk s.val)
  left_inv := by
    rintro ⟨⟨a, ha⟩, ⟨b, hb⟩⟩
    refine Prod.ext (Fin.ext ?_) (Fin.ext ?_)
    · show (8 * a + b) / 8 = a
      omega
    · show (8 * a + b) % 8 = b
      omega
  right_inv := by
    rintro ⟨s, hs⟩
    refine Fin.ext ?_
    show 8 * (s / 8) + s % 8 = s
    omega

/-- A sum over the 64 grid points of a function of the point's pair of blocks is the double sum over the pairs. -/
theorem sum_grid {M : Type*} [AddCommMonoid M] (N : ℕ) (hN : N = 64) (G : Fin 8 → Fin 8 → M) :
    ∑ s : Fin N, G (rowBlk s.val (lt_of_lt_of_eq s.isLt hN)) (colBlk s.val) = ∑ bi : Fin 8, ∑ bj : Fin 8, G bi bj := by
  subst hN
  rw [← Fintype.sum_prod_type' G]
  exact Fintype.sum_equiv gridEquiv.symm _ _ fun s => rfl

/-- The total of the pair `(bi, bj)` of blocks of two tables of rows, with the rows' own squared norms. -/
def blockPair (X Y : Fin 8192 → Fin 128 → EReal) (bi bj : Fin 8) : EReal :=
  Cert.Rbf.blockTotal (fun r d => X (Cert.Rbf.blockRow bi r) d) (fun q d => Y (Cert.Rbf.blockRow bj q) d)
    (fun r => Cert.Rbf.sq X (Cert.Rbf.blockRow bi r)) (fun q => Cert.Rbf.sq Y (Cert.Rbf.blockRow bj q))

/-- The pair sum is the sum of the totals of the `8 × 8` pairs of blocks. -/
theorem pairSum_blockPair (X Y : Fin 8192 → Fin 128 → EReal) :
    Cert.Rbf.pairSum X Y = ∑ bi : Fin 8, ∑ bj : Fin 8, blockPair X Y bi bj :=
  Cert.Rbf.pairSum_blocks X Y

/-! ## Pallas_call 0 -/

section
variable (V : (c : Dev nD) → (b : Ref sig .tc) → Buf (Elt Ideal) ((c : Thread nD τ).loc b)) (c : Dev nD)

/-- The block total at grid point `s` is the total of the pair of blocks `(s / 8, s % 8)` of the two tables, when the
    two arrays of squared norms hold the rows' squared norms. -/
theorem blockAt0_eq
    (hn1 : ∀ i : Fin 8192, V c main_v2 (ix2 i (0 : Fin 1)) = Cert.Rbf.sq (Cert.Rbf.rows (V c main_arg0)) i)
    (hn2 : ∀ j : Fin 8192, V c main_v6 (ix2 (0 : Fin 1) j) = Cert.Rbf.sq (Cert.Rbf.rows (V c main_arg0)) j)
    (s : Fin cfg0.N) :
    blockAt0 V c s
      = blockPair (Cert.Rbf.rows (V c main_arg0)) (Cert.Rbf.rows (V c main_arg0)) (rowBlk s.val (lt64_0 s)) (colBlk s.val) := by
  have e1 : (fun (r : Fin 1024) (d : Fin 128) => iblk0 V c 0 s (ix2 r d))
      = fun r d => Cert.Rbf.rows (V c main_arg0) (Cert.Rbf.blockRow (rowBlk s.val (lt64_0 s)) r) d :=
    funext fun r => funext fun d => iblk0_0_apply V c s r d
  have e2 : (fun (q : Fin 1024) (d : Fin 128) => iblk0 V c 1 s (ix2 q d))
      = fun q d => Cert.Rbf.rows (V c main_arg0) (Cert.Rbf.blockRow (colBlk s.val) q) d :=
    funext fun q => funext fun d => iblk0_1_apply V c s q d
  have e3 : (fun (r : Fin 1024) => iblk0 V c 2 s (ix2 r (0 : Fin 1)))
      = fun r => Cert.Rbf.sq (Cert.Rbf.rows (V c main_arg0)) (Cert.Rbf.blockRow (rowBlk s.val (lt64_0 s)) r) :=
    funext fun r => (iblk0_2_apply V c s r).trans (hn1 _)
  have e4 : (fun (q : Fin 1024) => iblk0 V c 3 s (ix2 (0 : Fin 1) q))
      = fun q => Cert.Rbf.sq (Cert.Rbf.rows (V c main_arg0)) (Cert.Rbf.blockRow (colBlk s.val) q) :=
    funext fun q => (iblk0_3_apply V c s q).trans (hn2 _)
  unfold blockAt0 blockOf blockPair
  rw [e1, e2, e3, e4]

/-- The block totals of all the grid points add up to the pair sum of the two tables. -/
theorem sumBlocks0
    (hn1 : ∀ i : Fin 8192, V c main_v2 (ix2 i (0 : Fin 1)) = Cert.Rbf.sq (Cert.Rbf.rows (V c main_arg0)) i)
    (hn2 : ∀ j : Fin 8192, V c main_v6 (ix2 (0 : Fin 1) j) = Cert.Rbf.sq (Cert.Rbf.rows (V c main_arg0)) j) :
    ∑ s : Fin cfg0.N, blockAt0 V c s
      = Cert.Rbf.pairSum (Cert.Rbf.rows (V c main_arg0)) (Cert.Rbf.rows (V c main_arg0)) :=
  (Finset.sum_congr rfl fun s _ => blockAt0_eq V c hn1 hn2 s).trans
    ((sum_grid cfg0.N N_0 (blockPair (Cert.Rbf.rows (V c main_arg0)) (Cert.Rbf.rows (V c main_arg0)))).trans
      (pairSum_blockPair _ _).symm)

/-- So after the last grid point the accumulator block holds the pair sum. -/
theorem accLast0
    (hn1 : ∀ i : Fin 8192, V c main_v2 (ix2 i (0 : Fin 1)) = Cert.Rbf.sq (Cert.Rbf.rows (V c main_arg0)) i)
    (hn2 : ∀ j : Fin 8192, V c main_v6 (ix2 (0 : Fin 1) j) = Cert.Rbf.sq (Cert.Rbf.rows (V c main_arg0)) j)
    (t : Fin cfg0.N) (ht : t.val + 1 = cfg0.N) :
    outsAt0 (F := Ideal) V c t.val t.isLt
      = fun _ => Cert.Rbf.pairSum (Cert.Rbf.rows (V c main_arg0)) (Cert.Rbf.rows (V c main_arg0)) := by
  rw [outsAt0_last V c t ht, sumBlocks0 V c hn1 hn2]

end

/-! ## Pallas_call 1 -/

section
variable (V : (c : Dev nD) → (b : Ref sig .tc) → Buf (Elt Ideal) ((c : Thread nD τ).loc b)) (c : Dev nD)

/-- The block total at grid point `s` is the total of the pair of blocks `(s / 8, s % 8)` of the two tables, when the
    two arrays of squared norms hold the rows' squared norms. -/
theorem blockAt1_eq
    (hn1 : ∀ i : Fin 8192, V c main_v11 (ix2 i (0 : Fin 1)) = Cert.Rbf.sq (Cert.Rbf.rows (V c main_arg1)) i)
    (hn2 : ∀ j : Fin 8192, V c main_v15 (ix2 (0 : Fin 1) j) = Cert.Rbf.sq (Cert.Rbf.rows (V c main_arg1)) j)
    (s : Fin cfg1.N) :
    blockAt1 V c s
      = blockPair (Cert.Rbf.rows (V c main_arg1)) (Cert.Rbf.rows (V c main_arg1)) (rowBlk s.val (lt64_1 s)) (colBlk s.val) := by
  have e1 : (fun (r : Fin 1024) (d : Fin 128) => iblk1 V c 0 s (ix2 r d))
      = fun r d => Cert.Rbf.rows (V c main_arg1) (Cert.Rbf.blockRow (rowBlk s.val (lt64_1 s)) r) d :=
    funext fun r => funext fun d => iblk1_0_apply V c s r d
  have e2 : (fun (q : Fin 1024) (d : Fin 128) => iblk1 V c 1 s (ix2 q d))
      = fun q d => Cert.Rbf.rows (V c main_arg1) (Cert.Rbf.blockRow (colBlk s.val) q) d :=
    funext fun q => funext fun d => iblk1_1_apply V c s q d
  have e3 : (fun (r : Fin 1024) => iblk1 V c 2 s (ix2 r (0 : Fin 1)))
      = fun r => Cert.Rbf.sq (Cert.Rbf.rows (V c main_arg1)) (Cert.Rbf.blockRow (rowBlk s.val (lt64_1 s)) r) :=
    funext fun r => (iblk1_2_apply V c s r).trans (hn1 _)
  have e4 : (fun (q : Fin 1024) => iblk1 V c 3 s (ix2 (0 : Fin 1) q))
      = fun q => Cert.Rbf.sq (Cert.Rbf.rows (V c main_arg1)) (Cert.Rbf.blockRow (colBlk s.val) q) :=
    funext fun q => (iblk1_3_apply V c s q).trans (hn2 _)
  unfold blockAt1 blockOf blockPair
  rw [e1, e2, e3, e4]

/-- The block totals of all the grid points add up to the pair sum of the two tables. -/
theorem sumBlocks1
    (hn1 : ∀ i : Fin 8192, V c main_v11 (ix2 i (0 : Fin 1)) = Cert.Rbf.sq (Cert.Rbf.rows (V c main_arg1)) i)
    (hn2 : ∀ j : Fin 8192, V c main_v15 (ix2 (0 : Fin 1) j) = Cert.Rbf.sq (Cert.Rbf.rows (V c main_arg1)) j) :
    ∑ s : Fin cfg1.N, blockAt1 V c s
      = Cert.Rbf.pairSum (Cert.Rbf.rows (V c main_arg1)) (Cert.Rbf.rows (V c main_arg1)) :=
  (Finset.sum_congr rfl fun s _ => blockAt1_eq V c hn1 hn2 s).trans
    ((sum_grid cfg1.N N_1 (blockPair (Cert.Rbf.rows (V c main_arg1)) (Cert.Rbf.rows (V c main_arg1)))).trans
      (pairSum_blockPair _ _).symm)

/-- So after the last grid point the accumulator block holds the pair sum. -/
theorem accLast1
    (hn1 : ∀ i : Fin 8192, V c main_v11 (ix2 i (0 : Fin 1)) = Cert.Rbf.sq (Cert.Rbf.rows (V c main_arg1)) i)
    (hn2 : ∀ j : Fin 8192, V c main_v15 (ix2 (0 : Fin 1) j) = Cert.Rbf.sq (Cert.Rbf.rows (V c main_arg1)) j)
    (t : Fin cfg1.N) (ht : t.val + 1 = cfg1.N) :
    outsAt1 (F := Ideal) V c t.val t.isLt
      = fun _ => Cert.Rbf.pairSum (Cert.Rbf.rows (V c main_arg1)) (Cert.Rbf.rows (V c main_arg1)) := by
  rw [outsAt1_last V c t ht, sumBlocks1 V c hn1 hn2]

end

/-! ## Pallas_call 2 -/

section
variable (V : (c : Dev nD) → (b : Ref sig .tc) → Buf (Elt Ideal) ((c : Thread nD τ).loc b)) (c : Dev nD)

/-- The block total at grid point `s` is the total of the pair of blocks `(s / 8, s % 8)` of the two tables, when the
    two arrays of squared norms hold the rows' squared norms. -/
theorem blockAt2_eq
    (hn1 : ∀ i : Fin 8192, V c main_v20 (ix2 i (0 : Fin 1)) = Cert.Rbf.sq (Cert.Rbf.rows (V c main_arg0)) i)
    (hn2 : ∀ j : Fin 8192, V c main_v24 (ix2 (0 : Fin 1) j) = Cert.Rbf.sq (Cert.Rbf.rows (V c main_arg1)) j)
    (s : Fin cfg2.N) :
    blockAt2 V c s
      = blockPair (Cert.Rbf.rows (V c main_arg0)) (Cert.Rbf.rows (V c main_arg1)) (rowBlk s.val (lt64_2 s)) (colBlk s.val) := by
  have e1 : (fun (r : Fin 1024) (d : Fin 128) => iblk2 V c 0 s (ix2 r d))
      = fun r d => Cert.Rbf.rows (V c main_arg0) (Cert.Rbf.blockRow (rowBlk s.val (lt64_2 s)) r) d :=
    funext fun r => funext fun d => iblk2_0_apply V c s r d
  have e2 : (fun (q : Fin 1024) (d : Fin 128) => iblk2 V c 1 s (ix2 q d))
      = fun q d => Cert.Rbf.rows (V c main_arg1) (Cert.Rbf.blockRow (colBlk s.val) q) d :=
    funext fun q => funext fun d => iblk2_1_apply V c s q d
  have e3 : (fun (r : Fin 1024) => iblk2 V c 2 s (ix2 r (0 : Fin 1)))
      = fun r => Cert.Rbf.sq (Cert.Rbf.rows (V c main_arg0)) (Cert.Rbf.blockRow (rowBlk s.val (lt64_2 s)) r) :=
    funext fun r => (iblk2_2_apply V c s r).trans (hn1 _)
  have e4 : (fun (q : Fin 1024) => iblk2 V c 3 s (ix2 (0 : Fin 1) q))
      = fun q => Cert.Rbf.sq (Cert.Rbf.rows (V c main_arg1)) (Cert.Rbf.blockRow (colBlk s.val) q) :=
    funext fun q => (iblk2_3_apply V c s q).trans (hn2 _)
  unfold blockAt2 blockOf blockPair
  rw [e1, e2, e3, e4]

/-- The block totals of all the grid points add up to the pair sum of the two tables. -/
theorem sumBlocks2
    (hn1 : ∀ i : Fin 8192, V c main_v20 (ix2 i (0 : Fin 1)) = Cert.Rbf.sq (Cert.Rbf.rows (V c main_arg0)) i)
    (hn2 : ∀ j : Fin 8192, V c main_v24 (ix2 (0 : Fin 1) j) = Cert.Rbf.sq (Cert.Rbf.rows (V c main_arg1)) j) :
    ∑ s : Fin cfg2.N, blockAt2 V c s
      = Cert.Rbf.pairSum (Cert.Rbf.rows (V c main_arg0)) (Cert.Rbf.rows (V c main_arg1)) :=
  (Finset.sum_congr rfl fun s _ => blockAt2_eq V c hn1 hn2 s).trans
    ((sum_grid cfg2.N N_2 (blockPair (Cert.Rbf.rows (V c main_arg0)) (Cert.Rbf.rows (V c main_arg1)))).trans
      (pairSum_blockPair _ _).symm)

/-- So after the last grid point the accumulator block holds the pair sum. -/
theorem accLast2
    (hn1 : ∀ i : Fin 8192, V c main_v20 (ix2 i (0 : Fin 1)) = Cert.Rbf.sq (Cert.Rbf.rows (V c main_arg0)) i)
    (hn2 : ∀ j : Fin 8192, V c main_v24 (ix2 (0 : Fin 1) j) = Cert.Rbf.sq (Cert.Rbf.rows (V c main_arg1)) j)
    (t : Fin cfg2.N) (ht : t.val + 1 = cfg2.N) :
    outsAt2 (F := Ideal) V c t.val t.isLt
      = fun _ => Cert.Rbf.pairSum (Cert.Rbf.rows (V c main_arg0)) (Cert.Rbf.rows (V c main_arg1)) := by
  rw [outsAt2_last V c t ht, sumBlocks2 V c hn1 hn2]

end

end Cert.KernelIdeal.Hand

end
-- ==== Proof.KIValue.lean ====
/-
  The value the program leaves in its result buffer, over the extended reals.

  Each pallas_call's one-element result is the pair sum of the two tables it was given: the host operations before it
  lay out the rows' squared norms, and no item in between writes a table.  The host operations after a call read its
  one element as a scalar, and the closing operations combine the three scalars, each divided by the word of `2^26`,
  as `(a + b) - 2 c`.
-/
import proofs.«150827_j20048907337956_1_alg».proof.Proof.KIFrame
import proofs.«150827_j20048907337956_1_alg».proof.Proof.KIFlush
import proofs.«150827_j20048907337956_1_alg».proof.Proof.KIHost
import proofs.«150827_j20048907337956_1_alg».proof.Proof.KISum
import Idealize.ShloMosaic.Lib.ValueIdx
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (ρ : Dev nD → PrngReg) (c : Dev nD)

/-! ## The two tables are what was launched, at every item -/

theorem W1_arg0 : W1 m ρ c (Proc.devRef .tc main_arg0) = m ((c : Thread nD τ).loc main_arg0) :=
  (W1_of m ρ c main_arg0 (by decide)).trans rfl
theorem W1_arg1 : W1 m ρ c (Proc.devRef .tc main_arg1) = m ((c : Thread nD τ).loc main_arg1) :=
  (W1_of m ρ c main_arg1 (by decide)).trans rfl
theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W3_arg0 : W3 m ρ c (Proc.devRef .tc main_arg0) = m ((c : Thread nD τ).loc main_arg0) :=
  (W3_of m ρ c main_arg0 (by decide)).trans (W2_arg0 m ρ c)
theorem W3_arg1 : W3 m ρ c (Proc.devRef .tc main_arg1) = m ((c : Thread nD τ).loc main_arg1) :=
  (W3_of m ρ c main_arg1 (by decide)).trans (W2_arg1 m ρ c)
theorem W4_arg0 : W4 m ρ c (Proc.devRef .tc main_arg0) = m ((c : Thread nD τ).loc main_arg0) :=
  (W4_of_ne m ρ c main_arg0 (by decide)).trans (W3_arg0 m ρ c)
theorem W4_arg1 : W4 m ρ c (Proc.devRef .tc main_arg1) = m ((c : Thread nD τ).loc main_arg1) :=
  (W4_of_ne m ρ c main_arg1 (by decide)).trans (W3_arg1 m ρ c)
theorem W5_arg0 : W5 m ρ c (Proc.devRef .tc main_arg0) = m ((c : Thread nD τ).loc main_arg0) :=
  (W5_of m ρ c main_arg0 (by decide)).trans (W4_arg0 m ρ c)
theorem W5_arg1 : W5 m ρ c (Proc.devRef .tc main_arg1) = m ((c : Thread nD τ).loc main_arg1) :=
  (W5_of m ρ c main_arg1 (by decide)).trans (W4_arg1 m ρ c)

/-! ## The three results -/

/-- Pallas_call 0 leaves the pair sum of the first table with itself. -/
theorem call0_result : W2 m ρ c (Proc.devRef .tc main_v7)
    = fun _ => Cert.Rbf.pairSum (Cert.Rbf.rows (m ((c : Thread nD τ).loc main_arg0)))
        (Cert.Rbf.rows (m ((c : Thread nD τ).loc main_arg0))) := by
  have e0 : V1 m ρ c main_arg0 = m ((c : Thread nD τ).loc main_arg0) := W1_arg0 m ρ c
  have hn1 : ∀ i : Fin 8192, V1 m ρ c main_v2 (ix2 i (0 : Fin 1)) = Cert.Rbf.sq (Cert.Rbf.rows (V1 m ρ c main_arg0)) i :=
    fun i => by rw [e0]; exact host0_v2 (W0 m ρ c) i
  have hn2 : ∀ j : Fin 8192, V1 m ρ c main_v6 (ix2 (0 : Fin 1) j) = Cert.Rbf.sq (Cert.Rbf.rows (V1 m ρ c main_arg0)) j :=
    fun j => by rw [e0]; exact host0_v6 (W0 m ρ c) j
  rw [W2_out, final0_4, ← e0]
  exact accLast0 (V1 m ρ) c hn1 hn2 ⟨63, lt63_0⟩ (show 63 + 1 = cfg0.N from (show cfg0.N = 64 from N_0).symm)

/-- Pallas_call 1 leaves the pair sum of the second table with itself. -/
theorem call1_result : W4 m ρ c (Proc.devRef .tc main_v16)
    = fun _ => Cert.Rbf.pairSum (Cert.Rbf.rows (m ((c : Thread nD τ).loc main_arg1)))
        (Cert.Rbf.rows (m ((c : Thread nD τ).loc main_arg1))) := by
  have e1 : V3 m ρ c main_arg1 = m ((c : Thread nD τ).loc main_arg1) := W3_arg1 m ρ c
  have hn1 : ∀ i : Fin 8192, V3 m ρ c main_v11 (ix2 i (0 : Fin 1)) = Cert.Rbf.sq (Cert.Rbf.rows (V3 m ρ c main_arg1)) i :=
    fun i => by rw [e1, ← W2_arg1 m ρ c]; exact host1_v11 (W2 m ρ c) i
  have hn2 : ∀ j : Fin 8192, V3 m ρ c main_v15 (ix2 (0 : Fin 1) j) = Cert.Rbf.sq (Cert.Rbf.rows (V3 m ρ c main_arg1)) j :=
    fun j => by rw [e1, ← W2_arg1 m ρ c]; exact host1_v15 (W2 m ρ c) j
  rw [W4_out, final1_4, ← e1]
  exact accLast1 (V3 m ρ) c hn1 hn2 ⟨63, lt63_1⟩ (show 63 + 1 = cfg1.N from (show cfg1.N = 64 from N_1).symm)

/-- Pallas_call 2 leaves the pair sum of the first table with the second. -/
theorem call2_result : W6 m ρ c (Proc.devRef .tc main_v25)
    = fun _ => Cert.Rbf.pairSum (Cert.Rbf.rows (m ((c : Thread nD τ).loc main_arg0)))
        (Cert.Rbf.rows (m ((c : Thread nD τ).loc main_arg1))) := by
  have e0 : V5 m ρ c main_arg0 = m ((c : Thread nD τ).loc main_arg0) := W5_arg0 m ρ c
  have e1 : V5 m ρ c main_arg1 = m ((c : Thread nD τ).loc main_arg1) := W5_arg1 m ρ c
  have hn1 : ∀ i : Fin 8192, V5 m ρ c main_v20 (ix2 i (0 : Fin 1)) = Cert.Rbf.sq (Cert.Rbf.rows (V5 m ρ c main_arg0)) i :=
    fun i => by rw [e0, ← W4_arg0 m ρ c]; exact host2_v20 (W4 m ρ c) i
  have hn2 : ∀ j : Fin 8192, V5 m ρ c main_v24 (ix2 (0 : Fin 1) j) = Cert.Rbf.sq (Cert.Rbf.rows (V5 m ρ c main_arg1)) j :=
    fun j => by rw [e1, ← W4_arg1 m ρ c]; exact host2_v24 (W4 m ρ c) j
  rw [W6_out, final2_4, ← e0, ← e1]
  exact accLast2 (V5 m ρ) c hn1 hn2 ⟨63, lt63_2⟩ (show 63 + 1 = cfg2.N from (show cfg2.N = 64 from N_2).symm)

/-! ## The scalars the closing operations read -/

/-- The first scalar: call 0's result, read by the operations after it and untouched since. -/
theorem scalar0 : W6 m ρ c (Proc.devRef .tc main_v8)
    = fun _ => Cert.Rbf.pairSum (Cert.Rbf.rows (m ((c : Thread nD τ).loc main_arg0)))
        (Cert.Rbf.rows (m ((c : Thread nD τ).loc main_arg0))) :=
  (W6_of_ne m ρ c main_v8 (by decide)).trans <| (W5_of m ρ c main_v8 (by decide)).trans <|
    (W4_of_ne m ρ c main_v8 (by decide)).trans <| (host1_v8 (W2 m ρ c)).trans <|
      funext fun _ => congrFun (call0_result m ρ c) _

/-- The second scalar: call 1's result, read by the operations after it and untouched since. -/
theorem scalar1 : W6 m ρ c (Proc.devRef .tc main_v17)
    = fun _ => Cert.Rbf.pairSum (Cert.Rbf.rows (m ((c : Thread nD τ).loc main_arg1)))
        (Cert.Rbf.rows (m ((c : Thread nD τ).loc main_arg1))) :=
  (W6_of_ne m ρ c main_v17 (by decide)).trans <| (host2_v17 (W4 m ρ c)).trans <|
    funext fun _ => congrFun (call1_result m ρ c) _

/-- The program's result: `mmd` of the three pair sums of the two launched tables. -/
theorem result_eq : W7 (F := Ideal) m ρ c (Proc.devRef .tc main_v32)
    = fun _ => Cert.Rbf.mmd
        (Cert.Rbf.pairSum (Cert.Rbf.rows (m ((c : Thread nD τ).loc main_arg0))) (Cert.Rbf.rows (m ((c : Thread nD τ).loc main_arg0))))
        (Cert.Rbf.pairSum (Cert.Rbf.rows (m ((c : Thread nD τ).loc main_arg1))) (Cert.Rbf.rows (m ((c : Thread nD τ).loc main_arg1))))
        (Cert.Rbf.pairSum (Cert.Rbf.rows (m ((c : Thread nD τ).loc main_arg0))) (Cert.Rbf.rows (m ((c : Thread nD τ).loc main_arg1)))) := by
  refine (host3_v32 (W6 m ρ c)).trans ?_
  rw [scalar0 m ρ c, scalar1 m ρ c, call2_result m ρ c]

end Cert.KernelIdeal.Hand

end
-- ==== Proof.lean ====
/-
  A kernel that computes a maximum mean discrepancy of two tables of `8192` rows of `128` numbers, against its
  plain reference.

  For tables `X, Y` the pair value of rows `i, j` is `exp(-max(|X i|² + |Y j|² - 2 ⟨X i, Y j⟩, 0) / 2)`; the pair sum
  adds it over all `8192 × 8192` pairs; the result is `(S(A,A)/N + S(B,B)/N) - 2 · S(A,B)/N` with `N = 2^26`, for the
  two argument tables `A, B`.

  The reference forms each `8192 × 8192` table of pair values whole and sums it.  The kernel makes three calls, one per
  pair sum; each call walks an `8 × 8` grid of blocks of `1024 × 1024` pairs, at each grid point sums the block's
  pair values by rows and then down the column of row sums, and adds the total into a one-element accumulator that it
  zeroes at the first point and writes back once, after the last.  It negates by subtracting from zero and halves by
  multiplying with one half where the reference negates and divides by two.

  Over the extended reals the two spellings of the pair value agree at every argument, sums regroup freely (addition
  is commutative and associative there, infinities included), and the zero the accumulator starts from is neutral: no
  finiteness of the inputs is used.  The squared norms, the scalar divisions and the final combination are host
  operations spelt the same way in both programs.

  Both kernel programs (the word-level one and the one read over the extended reals) terminate without fault from any
  memory and leave the two argument tables as launched; so does the reference, a straight line of host operations.
  The idealization rewrote no operation, so its record is empty.
-/
import proofs.«150827_j20048907337956_1_alg».proof.Defs
import proofs.«150827_j20048907337956_1_alg».proof.Proof.Gen.Kernel
import proofs.«150827_j20048907337956_1_alg».proof.Proof.Gen.KernelIdeal
import proofs.«150827_j20048907337956_1_alg».proof.Proof.Gen.ReferenceIdeal
import proofs.«150827_j20048907337956_1_alg».proof.Proof.Gen.Pre_finite_inputs
import proofs.«150827_j20048907337956_1_alg».proof.Proof.Gen.ReferenceIdeal.Run
import proofs.«150827_j20048907337956_1_alg».proof.Proof.Gen.ReferenceIdeal.Read
import proofs.«150827_j20048907337956_1_alg».proof.Proof.KBFrame
import proofs.«150827_j20048907337956_1_alg».proof.Proof.KIFrame
import proofs.«150827_j20048907337956_1_alg».proof.Proof.KIValue
import proofs.«150827_j20048907337956_1_alg».proof.Proof.RbfReference
import Idealize.ShloMosaic.Adequacy
import Idealize.ShloMosaic.Init

noncomputable section

namespace Cert.Proof

open Idealize.ShloMosaic Idealize.ShloMosaic.TcCoe Idealize.SL.Sem

/-- The word-level kernel runs to the end and leaves its two argument arrays as launched. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at `mmd` of the three pair sums of the two argument tables: the kernel
    by summing the pair values block by block into a one-element accumulator, the reference by one sum over all
    pairs; the two spellings of a pair value agree, and sums regroup freely. -/
theorem algebraic : Cert.algebraic_KernelIdeal_ReferenceIdeal := by
  intro m ρ m' ρ' _ hagree
  refine ⟨fun c => fun _ => Cert.Rbf.mmd
      (Cert.Rbf.pairSum (Cert.Rbf.rows (m ((c.tc : Thread Cert.KernelIdeal.nD Cert.KernelIdeal.τ).loc Cert.KernelIdeal.main_arg0))) (Cert.Rbf.rows (m ((c.tc : Thread Cert.KernelIdeal.nD Cert.KernelIdeal.τ).loc Cert.KernelIdeal.main_arg0))))
      (Cert.Rbf.pairSum (Cert.Rbf.rows (m ((c.tc : Thread Cert.KernelIdeal.nD Cert.KernelIdeal.τ).loc Cert.KernelIdeal.main_arg1))) (Cert.Rbf.rows (m ((c.tc : Thread Cert.KernelIdeal.nD Cert.KernelIdeal.τ).loc Cert.KernelIdeal.main_arg1))))
      (Cert.Rbf.pairSum (Cert.Rbf.rows (m ((c.tc : Thread Cert.KernelIdeal.nD Cert.KernelIdeal.τ).loc Cert.KernelIdeal.main_arg0))) (Cert.Rbf.rows (m ((c.tc : Thread Cert.KernelIdeal.nD Cert.KernelIdeal.τ).loc Cert.KernelIdeal.main_arg1)))), ?_, ?_⟩
  · refine (θ_run Cert.KernelIdeal.defs _ _).mono (fun r h c => ⟨?_, ?_, ?_⟩) (Cert.KernelIdeal.Hand.run (F := Ideal) m ρ)
    · exact (h c _ (Cert.KernelIdeal.Hand.mem_uc Cert.KernelIdeal.main_v32 (by decide))).trans (Cert.KernelIdeal.Hand.result_eq m ρ c)
    · exact (h c _ (Cert.KernelIdeal.Hand.mem_uc Cert.KernelIdeal.main_arg0 (by decide))).trans (Cert.KernelIdeal.Hand.W7_main_arg0 m ρ c)
    · exact (h c _ (Cert.KernelIdeal.Hand.mem_uc Cert.KernelIdeal.main_arg1 (by decide))).trans (Cert.KernelIdeal.Hand.W7_main_arg1 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v71_eq, Cert.Rbf.val_main_v71_spec, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
